-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v3_0)) (v2 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v3_0) = v1 c
          ∧ r.2.mem ((c.tc : Thread Cert.KernelIdeal.nD Cert.KernelIdeal.τ).loc Cert.KernelIdeal.main_v3_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_v24) = v1 c
          ∧ r.2.mem ((c.tc : Thread Cert.ReferenceIdeal.nD Cert.ReferenceIdeal.τ).loc Cert.ReferenceIdeal.main_v25) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x784 : Shape := ⟨2, ![4096, 784]⟩
abbrev S16x64 : Shape := ⟨2, ![16, 64]⟩
abbrev S784x1024 : Shape := ⟨2, ![784, 1024]⟩
abbrev S1024 : Shape := ⟨1, ![1024]⟩
abbrev S1024x512 : Shape := ⟨2, ![1024, 512]⟩
abbrev S512 : Shape := ⟨1, ![512]⟩
abbrev S512x128 : Shape := ⟨2, ![512, 128]⟩
abbrev S128 : Shape := ⟨1, ![128]⟩
abbrev S64x512 : Shape := ⟨2, ![64, 512]⟩
abbrev S512x1024 : Shape := ⟨2, ![512, 1024]⟩
abbrev S1024x784 : Shape := ⟨2, ![1024, 784]⟩
abbrev S784 : Shape := ⟨1, ![784]⟩
abbrev S_ : Shape := ⟨0, ![]⟩

class Facts : Prop where
  bcast_S_S4096x784 : S_.BroadcastsInDim S4096x784 (![] : Fin 0 → Fin S4096x784.rank)
  reducesTo_S4096x784_S_d0_1 : S4096x784.ReducesTo [0, 1] S_
  h_S_ : 0 < S_.numel
  bcast_S_S16x64 : S_.BroadcastsInDim S16x64 (![] : Fin 0 → Fin S16x64.rank)
  reducesTo_S16x64_S_d0_1 : S16x64.ReducesTo [0, 1] S_
  bcast_S_S784x1024 : S_.BroadcastsInDim S784x1024 (![] : Fin 0 → Fin S784x1024.rank)
  reducesTo_S784x1024_S_d0_1 : S784x1024.ReducesTo [0, 1] S_
  bcast_S_S1024 : S_.BroadcastsInDim S1024 (![] : Fin 0 → Fin S1024.rank)
  reducesTo_S1024_S_d0 : S1024.ReducesTo [0] S_
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S64x512 : S_.BroadcastsInDim S64x512 (![] : Fin 0 → Fin S64x512.rank)
  reducesTo_S64x512_S_d0_1 : S64x512.ReducesTo [0, 1] S_
  bcast_S_S512x1024 : S_.BroadcastsInDim S512x1024 (![] : Fin 0 → Fin S512x1024.rank)
  reducesTo_S512x1024_S_d0_1 : S512x1024.ReducesTo [0, 1] S_
  bcast_S_S1024x784 : S_.BroadcastsInDim S1024x784 (![] : Fin 0 → Fin S1024x784.rank)
  reducesTo_S1024x784_S_d0_1 : S1024x784.ReducesTo [0, 1] S_
  bcast_S_S784 : S_.BroadcastsInDim S784 (![] : Fin 0 → Fin S784.rank)
  reducesTo_S784_S_d0 : S784.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S1024 .f32) (main_arg12 : FVec F S1024x784 .f32) (main_arg13 : FVec F S784 .f32) (main_v48 : IVec S_ 1) (main_v49 : FVec F S512x1024 .f32) (main_v50 : FVec F S512x1024 .f32) : IVec S_ 1 :=
  let main_v51 : IVec S512x1024 1 := cmpf .olt main_v49 main_v50
  let main_c_19 : IVec S_ 1 := constantI S_ 1 1#1
  let main_v52 : IVec S_ 1 := (fun x v => Host.reduce IntOp.andi x v reducesTo_S512x1024_S_d0_1 h_S_) main_v51 main_c_19
  let main_v53 : IVec S_ 1 := andi main_v48 main_v52
  let main_v54 : FVec F S1024 .f32 := Host.absf main_arg11
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  let main_v59 : FVec F S1024x784 .f32 := Host.absf main_arg12
  let main_cst_22 : FVec F S_ .f32 := constant S_ .f32 0x7F800000#32
  let main_v60 : FVec F S1024x784 .f32 := broadcastInDim S1024x784 ![] bcast_S_S1024x784 main_cst_22
  let main_v61 : IVec S1024x784 1 := cmpf .olt main_v59 main_v60
  let main_c_23 : IVec S_ 1 := constantI S_ 1 1#1
  let main_v62 : IVec S_ 1 := (fun x v => Host.reduce IntOp.andi x v reducesTo_S1024x784_S_d0_1 h_S_) main_v61 main_c_23
  let main_v63 : IVec S_ 1 := andi main_v58 main_v62
  let main_v64 : FVec F S784 .f32 := Host.absf main_arg13
  let main_cst_24 : FVec F S_ .f32 := constant S_ .f32 0x7F800000#32
  let main_v65 : FVec F S784 .f32 := broadcastInDim S784 ![] bcast_S_S784 main_cst_24
  let main_v66 : IVec S784 1 := cmpf .olt main_v64 main_v65
  let main_c_25 : IVec S_ 1 := constantI S_ 1 1#1
  let main_v67 : IVec S_ 1 := (fun x v => Host.reduce IntOp.andi x v reducesTo_S784_S_d0 h_S_) main_v66 main_c_25
  fn_part4 (F := F) main_v63 main_v67

def fn_part2 {F : FTy → Type} [FloatOps F] (main_arg7 : FVec F S128 .f32) (main_arg8 : FVec F S64x512 .f32) (main_arg9 : FVec F S512 .f32) (main_arg10 : FVec F S512x1024 .f32) (main_arg11 : FVec F S1024 .f32) (main_arg12 : FVec F S1024x784 .f32) (main_arg13 : FVec F S784 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S64x512 .f32 := Host.absf main_arg8
  let main_cst_14 : FVec F S_ .f32 := constant S_ .f32 0x7F800000#32
  let main_v40 : FVec F S64x512 .f32 := broadcastInDim S64x512 ![] bcast_S_S64x512 main_cst_14
  let main_v41 : IVec S64x512 1 := cmpf .olt main_v39 main_v40
  let main_c_15 : IVec S_ 1 := constantI S_ 1 1#1
  let main_v42 : IVec S_ 1 := (fun x v => Host.reduce IntOp.andi x v reducesTo_S64x512_S_d0_1 h_S_) main_v41 main_c_15
  let main_v43 : IVec S_ 1 := andi main_v38 main_v42
  let main_v44 : FVec F S512 .f32 := Host.absf main_arg9
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  let main_v49 : FVec F S512x1024 .f32 := Host.absf main_arg10
  let main_cst_18 : FVec F S_ .f32 := constant S_ .f32 0x7F800000#32
  let main_v50 : FVec F S512x1024 .f32 := broadcastInDim S512x1024 ![] bcast_S_S512x1024 main_cst_18
  fn_part3 (F := F) main_arg11 main_arg12 main_arg13 main_v48 main_v49 main_v50

def fn_part1 {F : FTy → Type} [FloatOps F] (main_arg4 : FVec F S1024x512 .f32) (main_arg5 : FVec F S512 .f32) (main_arg6 : FVec F S512x128 .f32) (main_arg7 : FVec F S128 .f32) (main_arg8 : FVec F S64x512 .f32) (main_arg9 : FVec F S512 .f32) (main_arg10 : FVec F S512x1024 .f32) (main_arg11 : FVec F S1024 .f32) (main_arg12 : FVec F S1024x784 .f32) (main_arg13 : FVec F S784 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x512 .f32 := Host.absf main_arg4
  let main_cst_6 : FVec F S_ .f32 := constant S_ .f32 0x7F800000#32
  let main_v20 : FVec F S1024x512 .f32 := broadcastInDim S1024x512 ![] bcast_S_S1024x512 main_cst_6
  let main_v21 : IVec S1024x512 1 := cmpf .olt main_v19 main_v20
  let main_c_7 : IVec S_ 1 := constantI S_ 1 1#1
  let main_v22 : IVec S_ 1 := (fun x v => Host.reduce IntOp.andi x v reducesTo_S1024x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x128 .f32 := Host.absf main_arg6
  let main_cst_10 : FVec F S_ .f32 := constant S_ .f32 0x7F800000#32
  let main_v30 : FVec F S512x128 .f32 := broadcastInDim S512x128 ![] bcast_S_S512x128 main_cst_10
  let main_v31 : IVec S512x128 1 := cmpf .olt main_v29 main_v30
  let main_c_11 : IVec S_ 1 := constantI S_ 1 1#1
  let main_v32 : IVec S_ 1 := (fun x v => Host.reduce IntOp.andi x v reducesTo_S512x128_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S4096x784 .f32) (main_arg1 : FVec F S16x64 .f32) (main_arg2 : FVec F S784x1024 .f32) (main_arg3 : FVec F S1024 .f32) (main_arg4 : FVec F S1024x512 .f32) (main_arg5 : FVec F S512 .f32) (main_arg6 : FVec F S512x128 .f32) (main_arg7 : FVec F S128 .f32) (main_arg8 : FVec F S64x512 .f32) (main_arg9 : FVec F S512 .f32) (main_arg10 : FVec F S512x1024 .f32) (main_arg11 : FVec F S1024 .f32) (main_arg12 : FVec F S1024x784 .f32) (main_arg13 : FVec F S784 .f32) : IVec S_ 1 :=
  let main_v0 : FVec F S4096x784 .f32 := Host.absf main_arg0
  let main_cst : FVec F S_ .f32 := constant S_ .f32 0x7F800000#32
  let main_v1 : FVec F S4096x784 .f32 := broadcastInDim S4096x784 ![] bcast_S_S4096x784 main_cst
  let main_v2 : IVec S4096x784 1 := cmpf .olt main_v0 main_v1
  let main_c : IVec S_ 1 := constantI S_ 1 1#1
  let main_v3 : IVec S_ 1 := (fun x v => Host.reduce IntOp.andi x v reducesTo_S4096x784_S_d0_1 h_S_) main_v2 main_c
  let main_v4 : FVec F S16x64 .f32 := Host.absf main_arg1
  let main_cst_0 : FVec F S_ .f32 := constant S_ .f32 0x7F800000#32
  let main_v5 : FVec F S16x64 .f32 := broadcastInDim S16x64 ![] bcast_S_S16x64 main_cst_0
  let main_v6 : IVec S16x64 1 := cmpf .olt main_v4 main_v5
  let main_c_1 : IVec S_ 1 := constantI S_ 1 1#1
  let main_v7 : IVec S_ 1 := (fun x v => Host.reduce IntOp.andi x v reducesTo_S16x64_S_d0_1 h_S_) main_v6 main_c_1
  let main_v8 : IVec S_ 1 := andi main_v3 main_v7
  let main_v9 : FVec F S784x1024 .f32 := Host.absf main_arg2
  let main_cst_2 : FVec F S_ .f32 := constant S_ .f32 0x7F800000#32
  let main_v10 : FVec F S784x1024 .f32 := broadcastInDim S784x1024 ![] bcast_S_S784x1024 main_cst_2
  let main_v11 : IVec S784x1024 1 := cmpf .olt main_v9 main_v10
  let main_c_3 : IVec S_ 1 := constantI S_ 1 1#1
  let main_v12 : IVec S_ 1 := (fun x v => Host.reduce IntOp.andi x v reducesTo_S784x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_arg8 main_arg9 main_arg10 main_arg11 main_arg12 main_arg13 main_v13 main_v16
-- ==== Kernel.lean ====
abbrev S4096x784 : Shape := ⟨2, ![4096, 784]⟩
abbrev S16x64 : Shape := ⟨2, ![16, 64]⟩
abbrev S784x1024 : Shape := ⟨2, ![784, 1024]⟩
abbrev S1024 : Shape := ⟨1, ![1024]⟩
abbrev S1024x512 : Shape := ⟨2, ![1024, 512]⟩
abbrev S512 : Shape := ⟨1, ![512]⟩
abbrev S512x128 : Shape := ⟨2, ![512, 128]⟩
abbrev S128 : Shape := ⟨1, ![128]⟩
abbrev S64x512 : Shape := ⟨2, ![64, 512]⟩
abbrev S512x1024 : Shape := ⟨2, ![512, 1024]⟩
abbrev S1024x784 : Shape := ⟨2, ![1024, 784]⟩
abbrev S784 : Shape := ⟨1, ![784]⟩
abbrev S1x1024 : Shape := ⟨2, ![1, 1024]⟩
abbrev S1x512 : Shape := ⟨2, ![1, 512]⟩
abbrev S1x128 : Shape := ⟨2, ![1, 128]⟩
abbrev S4096x64 : Shape := ⟨2, ![4096, 64]⟩
abbrev S1024x64 : Shape := ⟨2, ![1024, 64]⟩
abbrev S1024x1024 : Shape := ⟨2, ![1024, 1024]⟩
abbrev S1024x128 : Shape := ⟨2, ![1024, 128]⟩
abbrev S1x784 : Shape := ⟨2, ![1, 784]⟩
abbrev S65536x784 : Shape := ⟨2, ![65536, 784]⟩
abbrev S128x64 : Shape := ⟨2, ![128, 64]⟩
abbrev S2048x784 : Shape := ⟨2, ![2048, 784]⟩
abbrev S1x16x64 : Shape := ⟨3, ![1, 16, 64]⟩
abbrev S128x1x64 : Shape := ⟨3, ![128, 1, 64]⟩
abbrev S128x16x64 : Shape := ⟨3, ![128, 16, 64]⟩
abbrev S2048x64 : Shape := ⟨2, ![2048, 64]⟩
abbrev S2048x512 : Shape := ⟨2, ![2048, 512]⟩
abbrev S2048x1024 : Shape := ⟨2, ![2048, 1024]⟩

abbrev nBuf : Space → Nat
  | .hbm => 23
  | .vmem => 25
  | .smem => 0
  | _ => 0

abbrev bufTy : (tb : Table) → Fin (tcTables nBuf tb) → BufTy
  | .hbm, ⟨0, _⟩ => ⟨S4096x784, .f32⟩
  | .hbm, ⟨1, _⟩ => ⟨S16x64, .f32⟩
  | .hbm, ⟨2, _⟩ => ⟨S784x1024, .f32⟩
  | .hbm, ⟨3, _⟩ => ⟨S1024, .f32⟩
  | .hbm, ⟨4, _⟩ => ⟨S1024x512, .f32⟩
  | .hbm, ⟨5, _⟩ => ⟨S512, .f32⟩
  | .hbm, ⟨6, _⟩ => ⟨S512x128, .f32⟩
  | .hbm, ⟨7, _⟩ => ⟨S128, .f32⟩
  | .hbm, ⟨8, _⟩ => ⟨S64x512, .f32⟩
  | .hbm, ⟨9, _⟩ => ⟨S512, .f32⟩
  | .hbm, ⟨10, _⟩ => ⟨S512x1024, .f32⟩
  | .hbm, ⟨11, _⟩ => ⟨S1024, .f32⟩
  | .hbm, ⟨12, _⟩ => ⟨S1024x784, .f32⟩
  | .hbm, ⟨13, _⟩ => ⟨S784, .f32⟩
  | .hbm, ⟨14, _⟩ => ⟨S1x1024, .f32⟩
  | .hbm, ⟨15, _⟩ => ⟨S1x512, .f32⟩
  | .hbm, ⟨16, _⟩ => ⟨S1x128, .f32⟩
  | .hbm, ⟨17, _⟩ => ⟨S4096x64, .f32⟩
  | .hbm, ⟨18, _⟩ => ⟨S4096x64, .f32⟩
  | .hbm, ⟨19, _⟩ => ⟨S1x512, .f32⟩
  | .hbm, ⟨20, _⟩ => ⟨S1x1024, .f32⟩
  | .hbm, ⟨21, _⟩ => ⟨S1x784, .f32⟩
  | .hbm, ⟨22, _⟩ => ⟨S65536x784, .f32⟩
  | .local _ .vmem, ⟨0, _⟩ => ⟨S1024x784, .f32⟩
  | .local _ .vmem, ⟨1, _⟩ => ⟨S1024x784, .f32⟩
  | .local _ .vmem, ⟨2, _⟩ => ⟨S784x1024, .f32⟩
  | .local _ .vmem, ⟨3, _⟩ => ⟨S1x1024, .f32⟩
  | .local _ .vmem, ⟨4, _⟩ => ⟨S1024x512, .f32⟩
  | .local _ .vmem, ⟨5, _⟩ => ⟨S1x512, .f32⟩
  | .local _ .vmem, ⟨6, _⟩ => ⟨S512x128, .f32⟩
  | .local _ .vmem, ⟨7, _⟩ => ⟨S1x128, .f32⟩
  | .local _ .vmem, ⟨8, _⟩ => ⟨S1024x64, .f32⟩
  | .local _ .vmem, ⟨9, _⟩ => ⟨S1024x64, .f32⟩
  | .local _ .vmem, ⟨10, _⟩ => ⟨S1024x64, .f32⟩
  | .local _ .vmem, ⟨11, _⟩ => ⟨S1024x64, .f32⟩
  | .local _ .vmem, ⟨12, _⟩ => ⟨S128x64, .f32⟩
  | .local _ .vmem, ⟨13, _⟩ => ⟨S128x64, .f32⟩
  | .local _ .vmem, ⟨14, _⟩ => ⟨S128x64, .f32⟩
  | .local _ .vmem, ⟨15, _⟩ => ⟨S128x64, .f32⟩
  | .local _ .vmem, ⟨16, _⟩ => ⟨S16x64, .f32⟩
  | .local _ .vmem, ⟨17, _⟩ => ⟨S64x512, .f32⟩
  | .local _ .vmem, ⟨18, _⟩ => ⟨S1x512, .f32⟩
  | .local _ .vmem, ⟨19, _⟩ => ⟨S512x1024, .f32⟩
  | .local _ .vmem, ⟨20, _⟩ => ⟨S1x1024, .f32⟩
  | .local _ .vmem, ⟨21, _⟩ => ⟨S1024x784, .f32⟩
  | .local _ .vmem, ⟨22, _⟩ => ⟨S1x784, .f32⟩
  | .local _ .vmem, ⟨23, _⟩ => ⟨S2048x784, .f32⟩
  | .local _ .vmem, ⟨24, _⟩ => ⟨S2048x784, .f32⟩
  | _, _ => ⟨S4096x784, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3_0 : Ref sig .tc := ⟨.hbm, 17, rfl⟩
abbrev main_v3_1 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg9_0 : Ref sig .tc := ⟨.vmem, 23, rfl⟩
abbrev cc1_stg9_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem8_0 : DmaSem sig := 22
abbrev cc1_sem9_0 : DmaSem sig := 23
abbrev cc1_sem9_1 : DmaSem sig := 24

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x784 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S784x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S16x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S512x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1024x784 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x784 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S2048x784 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  shapeCasts_S1024_S1x1024 : S1024.ShapeCasts S1x1024
  shapeCasts_S512_S1x512 : S512.ShapeCasts S1x512
  shapeCasts_S128_S1x128 : S128.ShapeCasts S1x128
  inb_S1024x784_S1024x784_0_0 : ∀ a, (![0, 0] : Fin 2 → Nat) a + S1024x784.size a ≤ S1024x784.size a
  h_S1024x784 : 0 < S1024x784.numel
  bitsLt_bf16_f32 : FTy.bits .bf16 < FTy.bits .f32
  inb_S784x1024_S784x1024_0_0 : ∀ a, (![0, 0] : Fin 2 → Nat) a + S784x1024.size a ≤ S784x1024.size a
  h_S784x1024 : 0 < S784x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  inb_S1024x512_S1024x512_0_0 : ∀ a, (![0, 0] : Fin 2 → Nat) a + S1024x512.size a ≤ S1024x512.size a
  h_S1024x512 : 0 < S1024x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S512x128_S512x128_0_0 : ∀ a, (![0, 0] : Fin 2 → Nat) a + S512x128.size a ≤ S512x128.size a
  h_S512x128 : 0 < S512x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  slices_S1024x128_o0_0_S1024x64 : S1024x128.Slices ![0, 0] S1024x64
  inb_S1024x64_S1024x64_0_0 : ∀ a, (![0, 0] : Fin 2 → Nat) a + S1024x64.size a ≤ S1024x64.size a
  h_S1024x64 : 0 < S1024x64.numel
  slices_S1024x128_o0_64_S1024x64 : S1024x128.Slices ![0, 64] S1024x64
  shapeCasts_S784_S1x784 : S784.ShapeCasts S1x784
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S16x64_S16x64_0_0 : ∀ a, (![0, 0] : Fin 2 → Nat) a + S16x64.size a ≤ S16x64.size a
  h_S16x64 : 0 < S16x64.numel
  shapeCasts_S16x64_S1x16x64 : S16x64.ShapeCasts S1x16x64
  shapeCasts_S128x64_S128x1x64 : S128x64.ShapeCasts S128x1x64
  broadcasts_S1x16x64_S128x16x64 : S1x16x64.Broadcasts S128x16x64
  broadcasts_S128x1x64_S128x16x64 : S128x1x64.Broadcasts S128x16x64
  shapeCasts_S128x16x64_S2048x64 : S128x16x64.ShapeCasts S2048x64
  inb_S64x512_S64x512_0_0 : ∀ a, (![0, 0] : Fin 2 → Nat) a + S64x512.size a ≤ S64x512.size a
  h_S64x512 : 0 < S64x512.numel
  broadcasts_S1x512_S2048x512 : S1x512.Broadcasts S2048x512
  inb_S512x1024_S512x1024_0_0 : ∀ a, (![0, 0] : Fin 2 → Nat) a + S512x1024.size a ≤ S512x1024.size a
  h_S512x1024 : 0 < S512x1024.numel
  broadcasts_S1x1024_S2048x1024 : S1x1024.Broadcasts S2048x1024
  inb_S1x784_S1x784_0_0 : ∀ a, (![0, 0] : Fin 2 → Nat) a + S1x784.size a ≤ S1x784.size a
  h_S1x784 : 0 < S1x784.numel
  shapeCasts_S1x784_S1x784 : S1x784.ShapeCasts S1x784
  broadcasts_S1x784_S2048x784 : S1x784.Broadcasts S2048x784
  inb_S2048x784_S2048x784_0_0 : ∀ a, (![0, 0] : Fin 2 → Nat) a + S2048x784.size a ≤ S2048x784.size a
  h_S2048x784 : 0 < S2048x784.numel
  dot_S1024x784_S784x1024_S1024x1024_1_0_0_1_n_n_wf : DotDims.WF S1024x784 S784x1024 S1024x1024 [1] [0] [0] [1] [] []
  dot_S1024x1024_S1024x512_S1024x512_1_0_0_1_n_n_wf : DotDims.WF S1024x1024 S1024x512 S1024x512 [1] [0] [0] [1] [] []
  dot_S1024x512_S512x128_S1024x128_1_0_0_1_n_n_wf : DotDims.WF S1024x512 S512x128 S1024x128 [1] [0] [0] [1] [] []
  dot_S2048x64_S64x512_S2048x512_1_0_0_1_n_n_wf : DotDims.WF S2048x64 S64x512 S2048x512 [1] [0] [0] [1] [] []
  dot_S2048x512_S512x1024_S2048x1024_1_0_0_1_n_n_wf : DotDims.WF S2048x512 S512x1024 S2048x1024 [1] [0] [0] [1] [] []
  dot_S2048x1024_S1024x784_S2048x784_1_0_0_1_n_n_wf : DotDims.WF S2048x1024 S1024x784 S2048x784 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x784.size a ≤ S4096x784.size a
  hwx0_0 : ∀ i : grid0.Coords, EltTy.bits .f32 = 32 ∨ (Rect.block (s := S4096x784) S1024x784.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S784x1024.size a ≤ S784x1024.size a
  hwx0_1 : ∀ i : grid0.Coords, EltTy.bits .f32 = 32 ∨ (Rect.block (s := S784x1024) S784x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S1024x512.size a
  hwx0_3 : ∀ i : grid0.Coords, EltTy.bits .f32 = 32 ∨ (Rect.block (s := S1024x512) S1024x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x128.size a ≤ S512x128.size a
  hwx0_5 : ∀ i : grid0.Coords, EltTy.bits .f32 = 32 ∨ (Rect.block (s := S512x128) S512x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x64.size a ≤ S4096x64.size a
  hwx0_7 : ∀ i : grid0.Coords, EltTy.bits .f32 = 32 ∨ (Rect.block (s := S4096x64) S1024x64.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x64.size a ≤ S4096x64.size a
  hwx0_8 : ∀ i : grid0.Coords, EltTy.bits .f32 = 32 ∨ (Rect.block (s := S4096x64) S1024x64.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x64.size a ≤ S4096x64.size a
  hwx1_0 : ∀ i : grid1.Coords, EltTy.bits .f32 = 32 ∨ (Rect.block (s := S4096x64) S128x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S4096x64.size a
  hwx1_1 : ∀ i : grid1.Coords, EltTy.bits .f32 = 32 ∨ (Rect.block (s := S4096x64) S128x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x64.size a ≤ S16x64.size a
  hwx1_2 : ∀ i : grid1.Coords, EltTy.bits .f32 = 32 ∨ (Rect.block (s := S16x64) S16x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x512.size a ≤ S64x512.size a
  hwx1_3 : ∀ i : grid1.Coords, EltTy.bits .f32 = 32 ∨ (Rect.block (s := S64x512) S64x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x512.size a ≤ S1x512.size a
  hwx1_4 : ∀ i : grid1.Coords, EltTy.bits .f32 = 32 ∨ (Rect.block (s := S1x512) S1x512.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S512x1024.size a ≤ S512x1024.size a
  hwx1_5 : ∀ i : grid1.Coords, EltTy.bits .f32 = 32 ∨ (Rect.block (s := S512x1024) S512x1024.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x1024.size a ≤ S1x1024.size a
  hwx1_6 : ∀ i : grid1.Coords, EltTy.bits .f32 = 32 ∨ (Rect.block (s := S1x1024) S1x1024.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1024x784.size a ≤ S1024x784.size a
  hwx1_7 : ∀ i : grid1.Coords, EltTy.bits .f32 = 32 ∨ (Rect.block (s := S1024x784) S1024x784.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x784.size a ≤ S1x784.size a
  hwx1_8 : ∀ i : grid1.Coords, EltTy.bits .f32 = 32 ∨ (Rect.block (s := S1x784) S1x784.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S2048x784.size a ≤ S65536x784.size a
  hwx1_9 : ∀ i : grid1.Coords, EltTy.bits .f32 = 32 ∨ (Rect.block (s := S65536x784) S2048x784.size (cc1_transform_9 i) (hinb1_9 i)).WholeWords (EltTy.packing .f32)

variable [Facts₀]

def dot_S1024x784_S784x1024_S1024x1024_1_0_0_1_n_n : DotDims S1024x784 S784x1024 S1024x1024 where
  lhsContracting := [1]
  rhsContracting := [0]
  lhsNonContracting := [0]
  rhsNonContracting := [1]
  lhsBatch := []
  rhsBatch := []
  wf := dot_S1024x784_S784x1024_S1024x1024_1_0_0_1_n_n_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S1024x512_S512x128_S1024x128_1_0_0_1_n_n : DotDims S1024x512 S512x128 S1024x128 where
  lhsContracting := [1]
  rhsContracting := [0]
  lhsNonContracting := [0]
  rhsNonContracting := [1]
  lhsBatch := []
  rhsBatch := []
  wf := dot_S1024x512_S512x128_S1024x128_1_0_0_1_n_n_wf
def dot_S2048x64_S64x512_S2048x512_1_0_0_1_n_n : DotDims S2048x64 S64x512 S2048x512 where
  lhsContracting := [1]
  rhsContracting := [0]
  lhsNonContracting := [0]
  rhsNonContracting := [1]
  lhsBatch := []
  rhsBatch := []
  wf := dot_S2048x64_S64x512_S2048x512_1_0_0_1_n_n_wf
def dot_S2048x512_S512x1024_S2048x1024_1_0_0_1_n_n : DotDims S2048x512 S512x1024 S2048x1024 where
  lhsContracting := [1]
  rhsContracting := [0]
  lhsNonContracting := [0]
  rhsNonContracting := [1]
  lhsBatch := []
  rhsBatch := []
  wf := dot_S2048x512_S512x1024_S2048x1024_1_0_0_1_n_n_wf
def dot_S2048x1024_S1024x784_S2048x784_1_0_0_1_n_n : DotDims S2048x1024 S1024x784 S2048x784 where
  lhsContracting := [1]
  rhsContracting := [0]
  lhsNonContracting := [0]
  rhsNonContracting := [1]
  lhsBatch := []
  rhsBatch := []
  wf := dot_S2048x1024_S1024x784_S2048x784_1_0_0_1_n_n_wf

abbrev win0_0 : Pipeline.Window sig grid0 :=
  Pipeline.Window.ofSpec (Memref.whole main_arg0) S1024x784.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S784x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S1024x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S512x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3_0) S1024x64.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v3_1) S1024x64.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v3_0) S128x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3_1) S128x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S16x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S64x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v4) S1x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg10) S512x1024.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v5) S1x1024.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg12) S1024x784.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v6) S1x784.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v7) S2048x784.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S4096x784 : Shape := ⟨2, ![4096, 784]⟩
abbrev S16x64 : Shape := ⟨2, ![16, 64]⟩
abbrev S784x1024 : Shape := ⟨2, ![784, 1024]⟩
abbrev S1024 : Shape := ⟨1, ![1024]⟩
abbrev S1024x512 : Shape := ⟨2, ![1024, 512]⟩
abbrev S512 : Shape := ⟨1, ![512]⟩
abbrev S512x128 : Shape := ⟨2, ![512, 128]⟩
abbrev S128 : Shape := ⟨1, ![128]⟩
abbrev S64x512 : Shape := ⟨2, ![64, 512]⟩
abbrev S512x1024 : Shape := ⟨2, ![512, 1024]⟩
abbrev S1024x784 : Shape := ⟨2, ![1024, 784]⟩
abbrev S784 : Shape := ⟨1, ![784]⟩
abbrev S4096x1024 : Shape := ⟨2, ![4096, 1024]⟩
abbrev S1x1024 : Shape := ⟨2, ![1, 1024]⟩
abbrev S_ : Shape := ⟨0, ![]⟩
abbrev S4096x512 : Shape := ⟨2, ![4096, 512]⟩
abbrev S1x512 : Shape := ⟨2, ![1, 512]⟩
abbrev S4096x128 : Shape := ⟨2, ![4096, 128]⟩
abbrev S1x128 : Shape := ⟨2, ![1, 128]⟩
abbrev S4096x64 : Shape := ⟨2, ![4096, 64]⟩
abbrev S1x16x64 : Shape := ⟨3, ![1, 16, 64]⟩
abbrev S4096x1x64 : Shape := ⟨3, ![4096, 1, 64]⟩
abbrev S4096x16x64 : Shape := ⟨3, ![4096, 16, 64]⟩
abbrev S65536x64 : Shape := ⟨2, ![65536, 64]⟩
abbrev S65536x512 : Shape := ⟨2, ![65536, 512]⟩
abbrev S65536x1024 : Shape := ⟨2, ![65536, 1024]⟩
abbrev S65536x784 : Shape := ⟨2, ![65536, 784]⟩
abbrev S1x784 : Shape := ⟨2, ![1, 784]⟩

abbrev nBuf : Space → Nat
  | .hbm => 89
  | .vmem => 0
  | .smem => 0
  | _ => 0

abbrev bufTy : (tb : Table) → Fin (tcTables nBuf tb) → BufTy
  | .hbm, ⟨0, _⟩ => ⟨S4096x784, .f32⟩
  | .hbm, ⟨1, _⟩ => ⟨S16x64, .f32⟩
  | .hbm, ⟨2, _⟩ => ⟨S784x1024, .f32⟩
  | .hbm, ⟨3, _⟩ => ⟨S1024, .f32⟩
  | .hbm, ⟨4, _⟩ => ⟨S1024x512, .f32⟩
  | .hbm, ⟨5, _⟩ => ⟨S512, .f32⟩
  | .hbm, ⟨6, _⟩ => ⟨S512x128, .f32⟩
  | .hbm, ⟨7, _⟩ => ⟨S128, .f32⟩
  | .hbm, ⟨8, _⟩ => ⟨S64x512, .f32⟩
  | .hbm, ⟨9, _⟩ => ⟨S512, .f32⟩
  | .hbm, ⟨10, _⟩ => ⟨S512x1024, .f32⟩
  | .hbm, ⟨11, _⟩ => ⟨S1024, .f32⟩
  | .hbm, ⟨12, _⟩ => ⟨S1024x784, .f32⟩
  | .hbm, ⟨13, _⟩ => ⟨S784, .f32⟩
  | .hbm, ⟨14, _⟩ => ⟨S4096x1024, .f32⟩
  | .hbm, ⟨15, _⟩ => ⟨S1x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S4096x1024, .f32⟩
  | .hbm, ⟨25, _⟩ => ⟨S4096x1024, .f32⟩
  | .hbm, ⟨26, _⟩ => ⟨S4096x512, .f32⟩
  | .hbm, ⟨27, _⟩ => ⟨S1x512, .f32⟩
  | .hbm, ⟨28, _⟩ => ⟨S4096x512, .f32⟩
  | .hbm, ⟨29, _⟩ => ⟨S4096x512, .f32⟩
  | .hbm, ⟨30, _⟩ => ⟨S4096x512, .f32⟩
  | .hbm, ⟨31, _⟩ => ⟨S4096x512, .f32⟩
  | .hbm, ⟨32, _⟩ => ⟨S_, .f32⟩
  | .hbm, ⟨33, _⟩ => ⟨S4096x512, .f32⟩
  | .hbm, ⟨34, _⟩ => ⟨S4096x512, .f32⟩
  | .hbm, ⟨35, _⟩ => ⟨S_, .f32⟩
  | .hbm, ⟨36, _⟩ => ⟨S4096x512, .f32⟩
  | .hbm, ⟨37, _⟩ => ⟨S4096x512, .f32⟩
  | .hbm, ⟨38, _⟩ => ⟨S4096x128, .f32⟩
  | .hbm, ⟨39, _⟩ => ⟨S1x128, .f32⟩
  | .hbm, ⟨40, _⟩ => ⟨S4096x128, .f32⟩
  | .hbm, ⟨41, _⟩ => ⟨S4096x128, .f32⟩
  | .hbm, ⟨42, _⟩ => ⟨S4096x64, .f32⟩
  | .hbm, ⟨43, _⟩ => ⟨S4096x64, .f32⟩
  | .hbm, ⟨44, _⟩ => ⟨S1x16x64, .f32⟩
  | .hbm, ⟨45, _⟩ => ⟨S4096x1x64, .f32⟩
  | .hbm, ⟨46, _⟩ => ⟨S4096x16x64, .f32⟩
  | .hbm, ⟨47, _⟩ => ⟨S4096x16x64, .f32⟩
  | .hbm, ⟨48, _⟩ => ⟨S4096x16x64, .f32⟩
  | .hbm, ⟨49, _⟩ => ⟨S4096x1x64, .f32⟩
  | .hbm, ⟨50, _⟩ => ⟨S4096x16x64, .f32⟩
  | .hbm, ⟨51, _⟩ => ⟨S4096x16x64, .f32⟩
  | .hbm, ⟨52, _⟩ => ⟨S65536x64, .f32⟩
  | .hbm, ⟨53, _⟩ => ⟨S65536x512, .f32⟩
  | .hbm, ⟨54, _⟩ => ⟨S1x512, .f32⟩
  | .hbm, ⟨55, _⟩ => ⟨S65536x512, .f32⟩
  | .hbm, ⟨56, _⟩ => ⟨S65536x512, .f32⟩
  | .hbm, ⟨57, _⟩ => ⟨S65536x512, .f32⟩
  | .hbm, ⟨58, _⟩ => ⟨S65536x512, .f32⟩
  | .hbm, ⟨59, _⟩ => ⟨S_, .f32⟩
  | .hbm, ⟨60, _⟩ => ⟨S65536x512, .f32⟩
  | .hbm, ⟨61, _⟩ => ⟨S65536x512, .f32⟩
  | .hbm, ⟨62, _⟩ => ⟨S_, .f32⟩
  | .hbm, ⟨63, _⟩ => ⟨S65536x512, .f32⟩
  | .hbm, ⟨64, _⟩ => ⟨S65536x512, .f32⟩
  | .hbm, ⟨65, _⟩ => ⟨S65536x1024, .f32⟩
  | .hbm, ⟨66, _⟩ => ⟨S1x1024, .f32⟩
  | .hbm, ⟨67, _⟩ => ⟨S65536x1024, .f32⟩
  | .hbm, ⟨68, _⟩ => ⟨S65536x1024, .f32⟩
  | .hbm, ⟨69, _⟩ => ⟨S65536x1024, .f32⟩
  | .hbm, ⟨70, _⟩ => ⟨S65536x1024, .f32⟩
  | .hbm, ⟨71, _⟩ => ⟨S_, .f32⟩
  | .hbm, ⟨72, _⟩ => ⟨S65536x1024, .f32⟩
  | .hbm, ⟨73, _⟩ => ⟨S65536x1024, .f32⟩
  | .hbm, ⟨74, _⟩ => ⟨S_, .f32⟩
  | .hbm, ⟨75, _⟩ => ⟨S65536x1024, .f32⟩
  | .hbm, ⟨76, _⟩ => ⟨S65536x1024, .f32⟩
  | .hbm, ⟨77, _⟩ => ⟨S65536x784, .f32⟩
  | .hbm, ⟨78, _⟩ => ⟨S1x784, .f32⟩
  | .hbm, ⟨79, _⟩ => ⟨S65536x784, .f32⟩
  | .hbm, ⟨80, _⟩ => ⟨S65536x784, .f32⟩
  | .hbm, ⟨81, _⟩ => ⟨S65536x784, .f32⟩
  | .hbm, ⟨82, _⟩ => ⟨S65536x784, .f32⟩
  | .hbm, ⟨83, _⟩ => ⟨S_, .f32⟩
  | .hbm, ⟨84, _⟩ => ⟨S65536x784, .f32⟩
  | .hbm, ⟨85, _⟩ => ⟨S65536x784, .f32⟩
  | .hbm, ⟨86, _⟩ => ⟨S_, .f32⟩
  | .hbm, ⟨87, _⟩ => ⟨S65536x784, .f32⟩
  | .hbm, ⟨88, _⟩ => ⟨S65536x784, .f32⟩
  | _, _ => ⟨S4096x784, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_cst : Ref sig .tc := ⟨.hbm, 20, rfl⟩
abbrev main_v6 : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_1 : Ref sig .tc := ⟨.hbm, 32, rfl⟩
abbrev main_v16 : Ref sig .tc := ⟨.hbm, 33, rfl⟩
abbrev main_v17 : Ref sig .tc := ⟨.hbm, 34, rfl⟩
abbrev main_cst_2 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_3 : Ref sig .tc := ⟨.hbm, 59, rfl⟩
abbrev main_v41 : Ref sig .tc := ⟨.hbm, 60, rfl⟩
abbrev main_v42 : Ref sig .tc := ⟨.hbm, 61, rfl⟩
abbrev main_cst_4 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_5 : Ref sig .tc := ⟨.hbm, 71, rfl⟩
abbrev main_v51 : Ref sig .tc := ⟨.hbm, 72, rfl⟩
abbrev main_v52 : Ref sig .tc := ⟨.hbm, 73, rfl⟩
abbrev main_cst_6 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_7 : Ref sig .tc := ⟨.hbm, 83, rfl⟩
abbrev main_v61 : Ref sig .tc := ⟨.hbm, 84, rfl⟩
abbrev main_v62 : Ref sig .tc := ⟨.hbm, 85, rfl⟩
abbrev main_cst_8 : Ref sig .tc := ⟨.hbm, 86, rfl⟩
abbrev main_v63 : Ref sig .tc := ⟨.hbm, 87, rfl⟩
abbrev main_v64 : Ref sig .tc := ⟨.hbm, 88, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  bcast_S_S4096x1024 : S_.BroadcastsInDim S4096x1024 (![] : Fin 0 → Fin S4096x1024.rank)
  bcast_S512_S1x512_1 : S512.BroadcastsInDim S1x512 (![1] : Fin 1 → Fin S1x512.rank)
  bcast_S1x512_S4096x512_0_1 : S1x512.BroadcastsInDim S4096x512 (![0, 1] : Fin 2 → Fin S4096x512.rank)
  bcast_S_S4096x512 : S_.BroadcastsInDim S4096x512 (![] : Fin 0 → Fin S4096x512.rank)
  bcast_S128_S1x128_1 : S128.BroadcastsInDim S1x128 (![1] : Fin 1 → Fin S1x128.rank)
  bcast_S1x128_S4096x128_0_1 : S1x128.BroadcastsInDim S4096x128 (![0, 1] : Fin 2 → Fin S4096x128.rank)
  slices_S4096x128_S4096x64_0_0 : S4096x128.Slices ![0, 0] S4096x64
  slices_S4096x128_S4096x64_0_64 : S4096x128.Slices ![0, 64] S4096x64
  bcast_S16x64_S1x16x64_1_2 : S16x64.BroadcastsInDim S1x16x64 (![1, 2] : Fin 2 → Fin S1x16x64.rank)
  bcast_S4096x64_S4096x1x64_0_2 : S4096x64.BroadcastsInDim S4096x1x64 (![0, 2] : Fin 2 → Fin S4096x1x64.rank)
  bcast_S1x16x64_S4096x16x64_0_1_2 : S1x16x64.BroadcastsInDim S4096x16x64 (![0, 1, 2] : Fin 3 → Fin S4096x16x64.rank)
  bcast_S4096x1x64_S4096x16x64_0_1_2 : S4096x1x64.BroadcastsInDim S4096x16x64 (![0, 1, 2] : Fin 3 → Fin S4096x16x64.rank)
  shapeCasts_S4096x16x64_S65536x64 : S4096x16x64.ShapeCasts S65536x64
  bcast_S1x512_S65536x512_0_1 : S1x512.BroadcastsInDim S65536x512 (![0, 1] : Fin 2 → Fin S65536x512.rank)
  bcast_S_S65536x512 : S_.BroadcastsInDim S65536x512 (![] : Fin 0 → Fin S65536x512.rank)
  bcast_S1x1024_S65536x1024_0_1 : S1x1024.BroadcastsInDim S65536x1024 (![0, 1] : Fin 2 → Fin S65536x1024.rank)
  bcast_S_S65536x1024 : S_.BroadcastsInDim S65536x1024 (![] : Fin 0 → Fin S65536x1024.rank)
  bcast_S784_S1x784_1 : S784.BroadcastsInDim S1x784 (![1] : Fin 1 → Fin S1x784.rank)
  bcast_S1x784_S65536x784_0_1 : S1x784.BroadcastsInDim S65536x784 (![0, 1] : Fin 2 → Fin S65536x784.rank)
  bcast_S_S65536x784 : S_.BroadcastsInDim S65536x784 (![] : Fin 0 → Fin S65536x784.rank)
  dot_S4096x784_S784x1024_S4096x1024_1_0_0_1_n_n_wf : DotDims.WF S4096x784 S784x1024 S4096x1024 [1] [0] [0] [1] [] []
  dot_S4096x1024_S1024x512_S4096x512_1_0_0_1_n_n_wf : DotDims.WF S4096x1024 S1024x512 S4096x512 [1] [0] [0] [1] [] []
  dot_S4096x512_S512x128_S4096x128_1_0_0_1_n_n_wf : DotDims.WF S4096x512 S512x128 S4096x128 [1] [0] [0] [1] [] []
  dot_S65536x64_S64x512_S65536x512_1_0_0_1_n_n_wf : DotDims.WF S65536x64 S64x512 S65536x512 [1] [0] [0] [1] [] []
  dot_S65536x512_S512x1024_S65536x1024_1_0_0_1_n_n_wf : DotDims.WF S65536x512 S512x1024 S65536x1024 [1] [0] [0] [1] [] []
  dot_S65536x1024_S1024x784_S65536x784_1_0_0_1_n_n_wf : DotDims.WF S65536x1024 S1024x784 S65536x784 [1] [0] [0] [1] [] []

variable [Facts₀]

def dot_S4096x784_S784x1024_S4096x1024_1_0_0_1_n_n : DotDims S4096x784 S784x1024 S4096x1024 where
  lhsContracting := [1]
  rhsContracting := [0]
  lhsNonContracting := [0]
  rhsNonContracting := [1]
  lhsBatch := []
  rhsBatch := []
  wf := dot_S4096x784_S784x1024_S4096x1024_1_0_0_1_n_n_wf
def dot_S4096x1024_S1024x512_S4096x512_1_0_0_1_n_n : DotDims S4096x1024 S1024x512 S4096x512 where
  lhsContracting := [1]
  rhsContracting := [0]
  lhsNonContracting := [0]
  rhsNonContracting := [1]
  lhsBatch := []
  rhsBatch := []
  wf := dot_S4096x1024_S1024x512_S4096x512_1_0_0_1_n_n_wf
def dot_S4096x512_S512x128_S4096x128_1_0_0_1_n_n : DotDims S4096x512 S512x128 S4096x128 where
  lhsContracting := [1]
  rhsContracting := [0]
  lhsNonContracting := [0]
  rhsNonContracting := [1]
  lhsBatch := []
  rhsBatch := []
  wf := dot_S4096x512_S512x128_S4096x128_1_0_0_1_n_n_wf
def dot_S65536x64_S64x512_S65536x512_1_0_0_1_n_n : DotDims S65536x64 S64x512 S65536x512 where
  lhsContracting := [1]
  rhsContracting := [0]
  lhsNonContracting := [0]
  rhsNonContracting := [1]
  lhsBatch := []
  rhsBatch := []
  wf := dot_S65536x64_S64x512_S65536x512_1_0_0_1_n_n_wf
def dot_S65536x512_S512x1024_S65536x1024_1_0_0_1_n_n : DotDims S65536x512 S512x1024 S65536x1024 where
  lhsContracting := [1]
  rhsContracting := [0]
  lhsNonContracting := [0]
  rhsNonContracting := [1]
  lhsBatch := []
  rhsBatch := []
  wf := dot_S65536x512_S512x1024_S65536x1024_1_0_0_1_n_n_wf
def dot_S65536x1024_S1024x784_S65536x784_1_0_0_1_n_n : DotDims S65536x1024 S1024x784 S65536x784 where
  lhsContracting := [1]
  rhsContracting := [0]
  lhsNonContracting := [0]
  rhsNonContracting := [1]
  lhsBatch := []
  rhsBatch := []
  wf := dot_S65536x1024_S1024x784_S65536x784_1_0_0_1_n_n_wf

class Facts : Prop extends Facts₀ where

variable [Facts]
-- ==== Proof.KernelRun.lean ====
/-
  The idealized kernel's run, with its results named.

  The program is two kernel regions among stretches of host reshapes. Its run ends with every buffer of the
  TensorCore at the last boundary's contents: the decoder region's arrays at what its write-backs leave, every other
  buffer as the decoder region found it. Read at the three results and at the fourteen arguments this says: the
  reconstruction is the decoder's output array after its last write-back, the mean and the deviation are the encoder's
  two output arrays after its last write-back (the decoder only reads them, the reshapes in between do not touch
  them), and the arguments are as launched.
-/
import proofs.«126572_j27693949125146_2_alg».proof.Proof.Gen.KernelIdeal.Frame

set_option maxRecDepth 16384

noncomputable section

namespace Cert.KernelIdeal.Results

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The host reshapes between the two regions write none of the encoder's outputs. -/
theorem W3_of_not_written (c : Dev nD) (b : Ref sig .tc)
    (hb : b ≠ main_v4 ∧ b ≠ main_v5 ∧ b ≠ main_v6) :
    W3 m ρ c (Proc.devRef .tc b) = W2 m ρ c (Proc.devRef .tc b) :=
  StableHlo.after_of_forall_not_mem (b := Proc.devRef .tc b) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    refine ⟨?_, ?_, ?_⟩
    · exact StableHlo.devRef_ne_of_ne hb.1
    · exact StableHlo.devRef_ne_of_ne hb.2.1
    · exact StableHlo.devRef_ne_of_ne hb.2.2))

/-- The reconstruction at the end of the run: the decoder region's output array after its last write-back. -/
theorem end_rec (c : Dev nD) :
    W4 m ρ c (Proc.devRef .tc main_v7) = (dat1 (V3 m ρ) c).arrAt 9 cfg1.N := W4_arr m ρ c 9

/-- The mean at the end of the run: the encoder region's first output array after its last write-back. -/
theorem end_mean (c : Dev nD) :
    W4 m ρ c (Proc.devRef .tc main_v3_0) = (dat0 (V1 m ρ) c).arrAt 7 cfg0.N :=
  calc W4 m ρ c (Proc.devRef .tc main_v3_0)
    _ = W3 m ρ c (Proc.devRef .tc main_v3_0) := (W4_arr m ρ c 0).trans (((dat1 (V3 m ρ) c).arrAt_in 0 rfl _).trans (A_eq1 (V3 m ρ) c 0))
    _ = W2 m ρ c (Proc.devRef .tc main_v3_0) := W3_of_not_written m ρ c main_v3_0 (by decide)
    _ = (dat0 (V1 m ρ) c).arrAt 7 cfg0.N := W2_arr m ρ c 7

/-- The deviation at the end of the run: the encoder region's second output array after its last write-back. -/
theorem end_sd (c : Dev nD) :
    W4 m ρ c (Proc.devRef .tc main_v3_1) = (dat0 (V1 m ρ) c).arrAt 8 cfg0.N :=
  calc W4 m ρ c (Proc.devRef .tc main_v3_1)
    _ = W3 m ρ c (Proc.devRef .tc main_v3_1) := (W4_arr m ρ c 1).trans (((dat1 (V3 m ρ) c).arrAt_in 1 rfl _).trans (A_eq1 (V3 m ρ) c 1))
    _ = W2 m ρ c (Proc.devRef .tc main_v3_1) := W3_of_not_written m ρ c main_v3_1 (by decide)
    _ = (dat0 (V1 m ρ) c).arrAt 8 cfg0.N := W2_arr m ρ c 8

set_option backward.isDefEq.respectTransparency.types false in
/-- Every weakly fair execution of the idealized kernel terminates, nothing faulting, with the three results at the
    last boundary's contents and the arguments as launched: the launch over the program's four segments, the last
    thread state read against the final memory. -/
theorem run : θ_run defs (onTc (τ := τ) (main (F := F))) ⟨m, fun _ => 0, ρ⟩ (fun r => ∀ c : Dev nD,
      r.2.mem ((c.tc : Thread nD τ).loc main_v7) = W4 m ρ c (Proc.devRef .tc main_v7)
      ∧ r.2.mem ((c.tc : Thread nD τ).loc main_v3_0) = W4 m ρ c (Proc.devRef .tc main_v3_0)
      ∧ r.2.mem ((c.tc : Thread nD τ).loc main_v3_1) = W4 m ρ c (Proc.devRef .tc main_v3_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v7 (by decide)),
       h c _ (mem_uc main_v3_0 (by decide)),
       h c _ (mem_uc main_v3_1 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c),
       (h c _ (mem_uc main_arg12 (by decide))).trans (W4_main_arg12 m ρ c),
       (h c _ (mem_uc main_arg13 (by decide))).trans (W4_main_arg13 m ρ c)⟩)

end Cert.KernelIdeal.Results

end
-- ==== Proof.Entry.lean ====
/-
  What the two regions find on entry.

  Before the encoder region the host reshapes the three encoder bias vectors to [1, n] rows; nothing else is written, so
  the region finds every argument as launched and each bias row holding its vector. Between the regions the host reshapes
  the three decoder bias vectors the same way; the decoder region finds the noise and the decoder's parameter arrays as
  launched (neither the encoder region nor a reshape writes them), the bias rows holding their vectors, and the mean and
  deviation arrays as the encoder region left them.
-/
import proofs.«126572_j27693949125146_2_alg».proof.Proof.KernelRun
import Idealize.ShloMosaic.Lib.Pipeline.Value
import Idealize.ShloMosaic.Lib.ValueIdx
import Idealize.ShloMosaic.Lib.StableHlo.Run

set_option maxRecDepth 16384

noncomputable section

namespace Cert.KernelIdeal.Entry

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ) (ρ : Dev nD → PrngReg)

/-! ## The encoder region's entry -/

/-- The host reshapes before the encoder region write no argument. -/
theorem W1_of_arg (c : Dev nD) (b : Ref sig .tc) (hb : b ≠ main_v0 ∧ b ≠ main_v1 ∧ b ≠ main_v2) :
    W1 m ρ c (Proc.devRef .tc b) = m ((c : Thread nD τ).loc b) :=
  (StableHlo.after_of_forall_not_mem (b := Proc.devRef .tc b) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    refine ⟨?_, ?_, ?_⟩
    · exact StableHlo.devRef_ne_of_ne hb.1
    · exact StableHlo.devRef_ne_of_ne hb.2.1
    · exact StableHlo.devRef_ne_of_ne hb.2.2))).trans rfl

theorem V1_main_arg0 (c : Dev nD) : V1 m ρ c main_arg0 = m ((c : Thread nD τ).loc main_arg0) := W1_of_arg m ρ c main_arg0 (by decide)
theorem V1_main_arg2 (c : Dev nD) : V1 m ρ c main_arg2 = m ((c : Thread nD τ).loc main_arg2) := W1_of_arg m ρ c main_arg2 (by decide)
theorem V1_main_arg4 (c : Dev nD) : V1 m ρ c main_arg4 = m ((c : Thread nD τ).loc main_arg4) := W1_of_arg m ρ c main_arg4 (by decide)
theorem V1_main_arg6 (c : Dev nD) : V1 m ρ c main_arg6 = m ((c : Thread nD τ).loc main_arg6) := W1_of_arg m ρ c main_arg6 (by decide)

/-- The [1, 1024] row the host reshapes argument 3 into holds, at (0, j), the vector's entry j. -/
theorem V1_main_v0 (c : Dev nD) (j : Fin 1024) :
    V1 m ρ c main_v0 (ix2 (0 : Fin 1) j) = m ((c : Thread nD τ).loc main_arg3) (ix1 j) := by
  have e : (V1 m ρ c main_v0 : S1x1024.Idx → EReal) = shapeCast S1x1024 (m ((c : Thread nD τ).loc main_arg3)) shapeCasts_S1024_S1x1024 := by
    show StableHlo.after hostOps0 (W0 m ρ c) (Proc.devRef .tc main_v0) = _
    after_results
    rfl
  rw [e]
  exact shapeCast_apply _ _ (ix2 (0 : Fin 1) j) (ix1 j)
    (by rw [Shape.rowMajor_val_one, Shape.rowMajor_val_two]; show j.val = 0 * 1024 + j.val; omega)

/-- The [1, 512] row the host reshapes argument 5 into holds, at (0, j), the vector's entry j. -/
theorem V1_main_v1 (c : Dev nD) (j : Fin 512) :
    V1 m ρ c main_v1 (ix2 (0 : Fin 1) j) = m ((c : Thread nD τ).loc main_arg5) (ix1 j) := by
  have e : (V1 m ρ c main_v1 : S1x512.Idx → EReal) = shapeCast S1x512 (m ((c : Thread nD τ).loc main_arg5)) shapeCasts_S512_S1x512 := by
    show StableHlo.after hostOps0 (W0 m ρ c) (Proc.devRef .tc main_v1) = _
    after_results
    rfl
  rw [e]
  exact shapeCast_apply _ _ (ix2 (0 : Fin 1) j) (ix1 j)
    (by rw [Shape.rowMajor_val_one, Shape.rowMajor_val_two]; show j.val = 0 * 512 + j.val; omega)

/-- The [1, 128] row the host reshapes argument 7 into holds, at (0, j), the vector's entry j. -/
theorem V1_main_v2 (c : Dev nD) (j : Fin 128) :
    V1 m ρ c main_v2 (ix2 (0 : Fin 1) j) = m ((c : Thread nD τ).loc main_arg7) (ix1 j) := by
  have e : (V1 m ρ c main_v2 : S1x128.Idx → EReal) = shapeCast S1x128 (m ((c : Thread nD τ).loc main_arg7)) shapeCasts_S128_S1x128 := by
    show StableHlo.after hostOps0 (W0 m ρ c) (Proc.devRef .tc main_v2) = _
    after_results
    rfl
  rw [e]
  exact shapeCast_apply _ _ (ix2 (0 : Fin 1) j) (ix1 j)
    (by rw [Shape.rowMajor_val_one, Shape.rowMajor_val_two]; show j.val = 0 * 128 + j.val; omega)

/-! ## The decoder region's entry -/

/-- A buffer that is no array of the encoder region and that no reshape writes is, after the encoder region, as launched. -/
theorem W2_of_arg (c : Dev nD) (b : Ref sig .tc) (hw : ∀ w, Pipeline.arrRef spec0 w ≠ b)
    (hb : b ≠ main_v0 ∧ b ≠ main_v1 ∧ b ≠ main_v2) :
    W2 m ρ c (Proc.devRef .tc b) = m ((c : Thread nD τ).loc b) :=
  (W2_of_ne m ρ c b hw).trans (W1_of_arg m ρ c b hb)

/-- The same at the decoder region's entry. -/
theorem W3_of_arg (c : Dev nD) (b : Ref sig .tc) (hw : ∀ w, Pipeline.arrRef spec0 w ≠ b)
    (hb : b ≠ main_v0 ∧ b ≠ main_v1 ∧ b ≠ main_v2) (hb' : b ≠ main_v4 ∧ b ≠ main_v5 ∧ b ≠ main_v6) :
    W3 m ρ c (Proc.devRef .tc b) = m ((c : Thread nD τ).loc b) :=
  (Results.W3_of_not_written m ρ c b hb').trans (W2_of_arg m ρ c b hw hb)

theorem V3_main_arg1 (c : Dev nD) : V3 m ρ c main_arg1 = m ((c : Thread nD τ).loc main_arg1) := W3_of_arg m ρ c main_arg1 (by decide) (by decide) (by decide)
theorem V3_main_arg8 (c : Dev nD) : V3 m ρ c main_arg8 = m ((c : Thread nD τ).loc main_arg8) := W3_of_arg m ρ c main_arg8 (by decide) (by decide) (by decide)
theorem V3_main_arg10 (c : Dev nD) : V3 m ρ c main_arg10 = m ((c : Thread nD τ).loc main_arg10) := W3_of_arg m ρ c main_arg10 (by decide) (by decide) (by decide)
theorem V3_main_arg12 (c : Dev nD) : V3 m ρ c main_arg12 = m ((c : Thread nD τ).loc main_arg12) := W3_of_arg m ρ c main_arg12 (by decide) (by decide) (by decide)

theorem W2_main_arg9 (c : Dev nD) : W2 m ρ c (Proc.devRef .tc main_arg9) = m ((c : Thread nD τ).loc main_arg9) := W2_of_arg m ρ c main_arg9 (by decide) (by decide)
theorem W2_main_arg11 (c : Dev nD) : W2 m ρ c (Proc.devRef .tc main_arg11) = m ((c : Thread nD τ).loc main_arg11) := W2_of_arg m ρ c main_arg11 (by decide) (by decide)
theorem W2_main_arg13 (c : Dev nD) : W2 m ρ c (Proc.devRef .tc main_arg13) = m ((c : Thread nD τ).loc main_arg13) := W2_of_arg m ρ c main_arg13 (by decide) (by decide)

/-- The [1, 512] row the host reshapes argument 9 into holds, at (0, j), the vector's entry j. -/
theorem V3_main_v4 (c : Dev nD) (j : Fin 512) :
    V3 m ρ c main_v4 (ix2 (0 : Fin 1) j) = m ((c : Thread nD τ).loc main_arg9) (ix1 j) := by
  have e : (V3 m ρ c main_v4 : S1x512.Idx → EReal) = shapeCast S1x512 ((W2 m ρ c (Proc.devRef .tc main_arg9))) shapeCasts_S512_S1x512 := by
    show StableHlo.after hostOps1 (W2 m ρ c) (Proc.devRef .tc main_v4) = _
    after_results
    rfl
  rw [e, W2_main_arg9 m ρ c]
  exact shapeCast_apply _ _ (ix2 (0 : Fin 1) j) (ix1 j)
    (by rw [Shape.rowMajor_val_one, Shape.rowMajor_val_two]; show j.val = 0 * 512 + j.val; omega)

/-- The [1, 1024] row the host reshapes argument 11 into holds, at (0, j), the vector's entry j. -/
theorem V3_main_v5 (c : Dev nD) (j : Fin 1024) :
    V3 m ρ c main_v5 (ix2 (0 : Fin 1) j) = m ((c : Thread nD τ).loc main_arg11) (ix1 j) := by
  have e : (V3 m ρ c main_v5 : S1x1024.Idx → EReal) = shapeCast S1x1024 ((W2 m ρ c (Proc.devRef .tc main_arg11))) shapeCasts_S1024_S1x1024 := by
    show StableHlo.after hostOps1 (W2 m ρ c) (Proc.devRef .tc main_v5) = _
    after_results
    rfl
  rw [e, W2_main_arg11 m ρ c]
  exact shapeCast_apply _ _ (ix2 (0 : Fin 1) j) (ix1 j)
    (by rw [Shape.rowMajor_val_one, Shape.rowMajor_val_two]; show j.val = 0 * 1024 + j.val; omega)

/-- The [1, 784] row the host reshapes argument 13 into holds, at (0, j), the vector's entry j. -/
theorem V3_main_v6 (c : Dev nD) (j : Fin 784) :
    V3 m ρ c main_v6 (ix2 (0 : Fin 1) j) = m ((c : Thread nD τ).loc main_arg13) (ix1 j) := by
  have e : (V3 m ρ c main_v6 : S1x784.Idx → EReal) = shapeCast S1x784 ((W2 m ρ c (Proc.devRef .tc main_arg13))) shapeCasts_S784_S1x784 := by
    show StableHlo.after hostOps1 (W2 m ρ c) (Proc.devRef .tc main_v6) = _
    after_results
    rfl
  rw [e, W2_main_arg13 m ρ c]
  exact shapeCast_apply _ _ (ix2 (0 : Fin 1) j) (ix1 j)
    (by rw [Shape.rowMajor_val_one, Shape.rowMajor_val_two]; show j.val = 0 * 784 + j.val; omega)

/-- The decoder region finds the mean array as the encoder region left it. -/
theorem V3_main_v3_0 (c : Dev nD) : V3 m ρ c main_v3_0 = (dat0 (V1 m ρ) c).arrAt 7 cfg0.N :=
  (Results.W3_of_not_written m ρ c main_v3_0 (by decide)).trans (W2_arr m ρ c 7)

/-- The decoder region finds the deviation array as the encoder region left it. -/
theorem V3_main_v3_1 (c : Dev nD) : V3 m ρ c main_v3_1 = (dat0 (V1 m ρ) c).arrAt 8 cfg0.N :=
  (Results.W3_of_not_written m ρ c main_v3_1 (by decide)).trans (W2_arr m ρ c 8)

end Cert.KernelIdeal.Entry

end
-- ==== Proof.LibPlainMatmul.lean ====
/-
  A kernel's plain matrix product read at an entry, over the extended reals.

  An [m, k] by [k, n] product accumulated into the zero block has, at entry (a, b), the sum over the contracted
  coordinate c of A (a, c) · B (c, b): the exact contraction has no accumulator left in it (the extended reals have one
  zero) and is the same sum the host's product of the same operands is.
-/
import Idealize.ShloMosaic.Lib.StackMember
import Idealize.ShloMosaic.PureOps.Ideal.Laws

noncomputable section

namespace Cert.Lib

open Idealize.ShloMosaic Idealize.ShloMosaic.ValueIdx

/-- Entry (a, b) of an [m, k] × [k, n] matrix product into a zero accumulator is `∑ c, A (a, c) · B (c, b)`. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) :=
  (Ideal.matmul_constant_zero_apply (DotDims.plain m k n) prec A B (ix2 a b)).trans
    ((Ideal.dotGeneral_apply (DotDims.plain m k n) prec default A B (ix2 a b)).symm.trans
      (StackMember.dotGeneral_plain_apply prec A B a b))

end Cert.Lib

end
-- ==== Proof.Spec.lean ====
/-
  The mathematics of the certificate: a variational autoencoder's forward pass, row by row, over the extended reals.

  A dense layer sends a row x to the row (Σ_c x_c · W_{c,n}) + b_n; the logistic acts entry by entry. The encoder is three
  dense layers with a logistic after the first two; its 128 outputs per batch row are the mean (the first 64) and the
  deviation (the last 64). A latent row is eps_l · sd_b + mean_b, one for each batch row b and each of the 16 noise rows l,
  laid out batch-major (row 16·b + l). The decoder is three dense layers with a logistic after each. Every layer acts on
  one row at a time: that is why a kernel that works on a block of rows computes the same rows as the whole-array program.

  Also here: the two spellings of a dense layer read at an entry — the kernel's (a matrix product into a zero accumulator
  plus a broadcast bias row) and the host's (a general dot product plus a bias vector broadcast twice) — and the host's
  expanded logistic 1 / (1 + e^(-y)).
-/
import Idealize.ShloMosaic.PureOps.Ideal
import Idealize.ShloMosaic.PureOps.IdealRules
import Idealize.ShloMosaic.Lib.ValueIdx
import Idealize.ShloMosaic.Lib.Pipeline.Value
import proofs.«126572_j27693949125146_2_alg».proof.Proof.LibPlainMatmul

noncomputable section

namespace Cert.Vae

open Idealize.ShloMosaic Idealize.ShloMosaic.ValueIdx
open scoped BigOperators

/-! ## Rows -/

/-- A dense layer on one row: `(Σ_c x_c · W_{c,n}) + b_n`. -/
def affineRow {K N : Nat} (x : Fin K → EReal) (W : Fin K → Fin N → EReal) (b : Fin N → EReal) : Fin N → EReal :=
  fun n => (∑ c : Fin K, x c * W c n) + b n

/-- The logistic of every entry of a row. -/
def sigmoidRow {N : Nat} (y : Fin N → EReal) : Fin N → EReal := fun n => Ideal.logistic (y n)

/-- The encoder on one row: dense, logistic, dense, logistic, dense. -/
def encRow {D H1 H2 Z2 : Nat} (x : Fin D → EReal) (W1 : Fin D → Fin H1 → EReal) (b1 : Fin H1 → EReal)
    (W2 : Fin H1 → Fin H2 → EReal) (b2 : Fin H2 → EReal) (W3 : Fin H2 → Fin Z2 → EReal) (b3 : Fin Z2 → EReal) : Fin Z2 → EReal :=
  affineRow (sigmoidRow (affineRow (sigmoidRow (affineRow x W1 b1)) W2 b2)) W3 b3

/-- The decoder on one row: dense, logistic, three times. -/
def decRow {Z H1 H2 D : Nat} (z : Fin Z → EReal) (W1 : Fin Z → Fin H1 → EReal) (b1 : Fin H1 → EReal)
    (W2 : Fin H1 → Fin H2 → EReal) (b2 : Fin H2 → EReal) (W3 : Fin H2 → Fin D → EReal) (b3 : Fin D → EReal) : Fin D → EReal :=
  sigmoidRow (affineRow (sigmoidRow (affineRow (sigmoidRow (affineRow z W1 b1)) W2 b2)) W3 b3)

/-- A latent row: noise row `e` scaled by the deviation row `s` and shifted by the mean row `μ`. -/
def latentRow {Z : Nat} (e s μ : Fin Z → EReal) : Fin Z → EReal := fun j => e j * s j + μ j

/-! ## The kernel's dense layer: a product into the zero block plus a broadcast bias row -/

/-- A kernel's dense layer on a block of `m` rows: both operands narrowed to sixteen bits (no change of value over the
    extended reals), multiplied into a zero accumulator, the [1, n] bias row broadcast over the rows and added. -/
def kernelLayer {m k n : Nat} (A : FVec Ideal ⟨2, ![m, k]⟩ .f32) (B : FVec Ideal ⟨2, ![k, n]⟩ .f32)
    (bias : FVec Ideal ⟨2, ![1, n]⟩ .f32) (hc : (⟨2, ![1, n]⟩ : Shape).ShapeCasts ⟨2, ![1, n]⟩)
    (hb : (⟨2, ![1, n]⟩ : Shape).Broadcasts ⟨2, ![m, n]⟩) (h16 : FTy.bf16.bits < FTy.f32.bits) : FVec Ideal ⟨2, ![m, n]⟩ .f32 :=
  addf (matmul (DotDims.plain m k n) none (truncf .bf16 A h16) (truncf .bf16 B h16) (constant ⟨2, ![m, n]⟩ .f32 0x00000000#32))
    (broadcastTo ⟨2, ![m, n]⟩ (shapeCast ⟨2, ![1, n]⟩ bias hc) hb)

/-- Read at entry (p, q) it is the dense layer of row p. -/
theorem kernelLayer_apply {m k n : Nat} (A : FVec Ideal ⟨2, ![m, k]⟩ .f32) (B : FVec Ideal ⟨2, ![k, n]⟩ .f32)
    (bias : FVec Ideal ⟨2, ![1, n]⟩ .f32) (hc : (⟨2, ![1, n]⟩ : Shape).ShapeCasts ⟨2, ![1, n]⟩)
    (hb : (⟨2, ![1, n]⟩ : Shape).Broadcasts ⟨2, ![m, n]⟩) (h16 : FTy.bf16.bits < FTy.f32.bits) (p : Fin m) (q : Fin n) :
    kernelLayer A B bias hc hb h16 (ix2 p q)
      = affineRow (fun c => A (ix2 p c)) (fun c j => B (ix2 c j)) (fun j => bias (ix2 (0 : Fin 1) j)) q := by
  unfold kernelLayer affineRow
  show (matmul (DotDims.plain m k n) none (truncf .bf16 A h16) (truncf .bf16 B h16) (constant ⟨2, ![m, n]⟩ .f32 0x00000000#32)) (ix2 p q)
      + (broadcastTo ⟨2, ![m, n]⟩ (shapeCast ⟨2, ![1, n]⟩ bias hc) hb) (ix2 p q) = _
  rw [Cert.Lib.matmul_plain_zero_apply, shapeCast_self]
  congr 1
  refine broadcastTo_apply bias hb (ix2 p q) (ix2 (0 : Fin 1) q) fun a => ?_
  match a with
  | ⟨0, _⟩ => show (0 : Nat) = if (1 : Nat) = 1 then 0 else _; rw [if_pos rfl]
  | ⟨1, _⟩ =>
    show q.val = if n = 1 then 0 else q.val
    split
    · have := q.isLt; omega
    · rfl

/-- The rows of a logistic of a kernel's dense layer. -/
theorem sigmoid_kernelLayer_row {m k n : Nat} (A : FVec Ideal ⟨2, ![m, k]⟩ .f32) (B : FVec Ideal ⟨2, ![k, n]⟩ .f32)
    (bias : FVec Ideal ⟨2, ![1, n]⟩ .f32) (hc : (⟨2, ![1, n]⟩ : Shape).ShapeCasts ⟨2, ![1, n]⟩)
    (hb : (⟨2, ![1, n]⟩ : Shape).Broadcasts ⟨2, ![m, n]⟩) (h16 : FTy.bf16.bits < FTy.f32.bits) (p : Fin m) :
    (fun c : Fin n => logistic (kernelLayer A B bias hc hb h16) (ix2 p c))
      = sigmoidRow (affineRow (fun c => A (ix2 p c)) (fun c j => B (ix2 c j)) (fun j => bias (ix2 (0 : Fin 1) j))) := by
  funext c
  show Ideal.logistic (kernelLayer A B bias hc hb h16 (ix2 p c)) = _
  rw [kernelLayer_apply]
  rfl

/-! ## The host's dense layer: a general dot product plus a bias vector broadcast twice -/

/-- The host's dense layer on all `M` rows: the bias vector made a [1, n] row, then broadcast over the rows. -/
def hostLayer {M k n : Nat} (X : FVec Ideal ⟨2, ![M, k]⟩ .f32) (W : FVec Ideal ⟨2, ![k, n]⟩ .f32) (b : FVec Ideal ⟨1, ![n]⟩ .f32)
    (h1 : (⟨1, ![n]⟩ : Shape).BroadcastsInDim ⟨2, ![1, n]⟩ ![1])
    (h2 : (⟨2, ![1, n]⟩ : Shape).BroadcastsInDim ⟨2, ![M, n]⟩ ![0, 1]) : FVec Ideal ⟨2, ![M, n]⟩ .f32 :=
  addf (Host.dotGeneral (DotDims.plain M k n) none X W)
    (broadcastInDim ⟨2, ![M, n]⟩ ![0, 1] h2 (broadcastInDim ⟨2, ![1, n]⟩ ![1] h1 b))

/-- Read at entry (a, q) it is the dense layer of row a. -/
theorem hostLayer_apply {M k n : Nat} (X : FVec Ideal ⟨2, ![M, k]⟩ .f32) (W : FVec Ideal ⟨2, ![k, n]⟩ .f32) (b : FVec Ideal ⟨1, ![n]⟩ .f32)
    (h1 : (⟨1, ![n]⟩ : Shape).BroadcastsInDim ⟨2, ![1, n]⟩ ![1])
    (h2 : (⟨2, ![1, n]⟩ : Shape).BroadcastsInDim ⟨2, ![M, n]⟩ ![0, 1]) (a : Fin M) (q : Fin n) :
    hostLayer X W b h1 h2 (ix2 a q)
      = affineRow (fun c => X (ix2 a c)) (fun c j => W (ix2 c j)) (fun j => b (ix1 j)) q := by
  unfold hostLayer affineRow
  show Host.dotGeneral (DotDims.plain M k n) none X W (ix2 a q)
      + (broadcastInDim ⟨2, ![M, n]⟩ ![0, 1] h2 (broadcastInDim ⟨2, ![1, n]⟩ ![1] h1 b)) (ix2 a q) = _
  rw [StackMember.dotGeneral_plain_apply]
  congr 1
  refine (broadcastInDim_apply _ h2 _ (ix2 a q) (ix2 (0 : Fin 1) q) fun d => ?_).trans
    (broadcastInDim_apply _ h1 b (ix2 (0 : Fin 1) q) (ix1 q) fun d => ?_)
  · match d with
    | ⟨0, _⟩ => show (0 : Nat) = if (1 : Nat) = 1 then 0 else _; rw [if_pos rfl]
    | ⟨1, _⟩ =>
      show q.val = if n = 1 then 0 else q.val
      split
      · have := q.isLt; omega
      · rfl
  · match d with
    | ⟨0, _⟩ =>
      show q.val = if n = 1 then 0 else q.val
      split
      · have := q.isLt; omega
      · rfl

/-- The host's logistic, spelt out: `1 / (1 + e^(-y))` with both ones a broadcast scalar constant. -/
def hostSigmoid {s : Shape} (h0 : (⟨0, ![]⟩ : Shape).BroadcastsInDim s ![]) (y : FVec Ideal s .f32) : FVec Ideal s .f32 :=
  Host.divf (broadcastInDim s ![] h0 (constant ⟨0, ![]⟩ .f32 0x3F800000#32))
    (addf (broadcastInDim s ![] h0 (constant ⟨0, ![]⟩ .f32 0x3F800000#32)) (Host.exp (Host.negf y)))

/-- The word 0x3F800000 is the number one. -/
theorem ofBits_one_f32 : Ideal.ofBits .f32 0x3F800000#32 = 1 := IdealRules.sign_bit.ideal_onePat .f32

/-- Entry by entry it is the logistic. -/
theorem hostSigmoid_apply {s : Shape} (h0 : (⟨0, ![]⟩ : Shape).BroadcastsInDim s ![]) (y : FVec Ideal s .f32) (i : s.Idx) :
    hostSigmoid h0 y i = Ideal.logistic (y i) := by
  have e : (broadcastInDim s ![] h0 (constant ⟨0, ![]⟩ .f32 0x3F800000#32) : FVec Ideal s .f32) i = 1 :=
    (broadcastInDim_apply _ h0 _ i (fun d => d.elim0) fun d => d.elim0).trans ofBits_one_f32
  show Ideal.div ((broadcastInDim s ![] h0 (constant ⟨0, ![]⟩ .f32 0x3F800000#32) : FVec Ideal s .f32) i)
      ((broadcastInDim s ![] h0 (constant ⟨0, ![]⟩ .f32 0x3F800000#32) : FVec Ideal s .f32) i + Ideal.exp (-(y i))) = _
  rw [e]
  rfl

/-- The rows of the host's logistic of a host's dense layer. -/
theorem hostSigmoid_hostLayer_row {M k n : Nat} (X : FVec Ideal ⟨2, ![M, k]⟩ .f32) (W : FVec Ideal ⟨2, ![k, n]⟩ .f32) (b : FVec Ideal ⟨1, ![n]⟩ .f32)
    (h1 : (⟨1, ![n]⟩ : Shape).BroadcastsInDim ⟨2, ![1, n]⟩ ![1])
    (h2 : (⟨2, ![1, n]⟩ : Shape).BroadcastsInDim ⟨2, ![M, n]⟩ ![0, 1])
    (h0 : (⟨0, ![]⟩ : Shape).BroadcastsInDim ⟨2, ![M, n]⟩ ![]) (a : Fin M) :
    (fun c : Fin n => hostSigmoid h0 (hostLayer X W b h1 h2) (ix2 a c))
      = sigmoidRow (affineRow (fun c => X (ix2 a c)) (fun c j => W (ix2 c j)) (fun j => b (ix1 j))) := by
  funext c
  rw [hostSigmoid_apply, hostLayer_apply]
  rfl

end Cert.Vae

end
-- ==== Proof.EncBody.lean ====
/-
  The encoder kernel's body, entry by entry.

  On a block of 1024 batch rows the body computes, for row p, the encoder of that row: three dense layers (each a product
  into a zero accumulator plus a broadcast bias row, the operands narrowed to sixteen bits first, which changes nothing
  over the extended reals) with a logistic after the first two. It stores columns 0–63 of the 128 results as the mean
  block and columns 64–127 as the deviation block.
-/
import proofs.«126572_j27693949125146_2_alg».proof.Proof.Gen.KernelIdeal.Skeleton
import proofs.«126572_j27693949125146_2_alg».proof.Proof.Spec

noncomputable section

namespace Cert.KernelIdeal.EncBody

open Cert.KernelIdeal Cert.KernelIdeal.Gen Idealize.ShloMosaic Idealize.ShloMosaic.ValueIdx Cert.Vae

/-- All 128 outputs of row `p` of the block: the encoder of that row of the input block. -/
theorem enc_block_apply (x0 : Vec Ideal S1024x784 .f32) (x1 : Vec Ideal S784x1024 .f32) (x2 : Vec Ideal S1x1024 .f32)
    (x3 : Vec Ideal S1024x512 .f32) (x4 : Vec Ideal S1x512 .f32) (x5 : Vec Ideal S512x128 .f32) (x6 : Vec Ideal S1x128 .f32)
    (p : Fin 1024) (q : Fin 128) :
    k0_pay1 (F := Ideal) x0 x1 x2 x3 x4 x5 x6 (ix2 p q)
      = encRow (fun c => x0 (ix2 p c)) (fun c j => x1 (ix2 c j)) (fun j => x2 (ix2 (0 : Fin 1) j))
          (fun c j => x3 (ix2 c j)) (fun j => x4 (ix2 (0 : Fin 1) j)) (fun c j => x5 (ix2 c j)) (fun j => x6 (ix2 (0 : Fin 1) j)) q := by
  have e : k0_pay1 (F := Ideal) x0 x1 x2 x3 x4 x5 x6
      = kernelLayer (logistic (kernelLayer (logistic (kernelLayer x0 x1 x2 shapeCasts_S1x1024_S1x1024 broadcasts_S1x1024_S1024x1024 bitsLt_bf16_f32))
          x3 x4 shapeCasts_S1x512_S1x512 broadcasts_S1x512_S1024x512 bitsLt_bf16_f32))
          x5 x6 shapeCasts_S1x128_S1x128 broadcasts_S1x128_S1024x128 bitsLt_bf16_f32 := rfl
  rw [e, kernelLayer_apply]
  unfold encRow
  rw [sigmoid_kernelLayer_row, sigmoid_kernelLayer_row]

/-- The mean block at (p, q): output q of the encoder of row p. -/
theorem mean_block_apply (x0 : Vec Ideal S1024x784 .f32) (x1 : Vec Ideal S784x1024 .f32) (x2 : Vec Ideal S1x1024 .f32)
    (x3 : Vec Ideal S1024x512 .f32) (x4 : Vec Ideal S1x512 .f32) (x5 : Vec Ideal S512x128 .f32) (x6 : Vec Ideal S1x128 .f32)
    (p : Fin 1024) (q : Fin 64) :
    k0_pay2 (F := Ideal) x0 x1 x2 x3 x4 x5 x6 (ix2 p q)
      = encRow (fun c => x0 (ix2 p c)) (fun c j => x1 (ix2 c j)) (fun j => x2 (ix2 (0 : Fin 1) j))
          (fun c j => x3 (ix2 c j)) (fun j => x4 (ix2 (0 : Fin 1) j)) (fun c j => x5 (ix2 c j)) (fun j => x6 (ix2 (0 : Fin 1) j))
          ⟨q.val, by have := q.isLt; omega⟩ := by
  unfold k0_pay2
  refine (extractStridedSlice_apply _ _ _ (ix2 p q) (ix2 p (⟨q.val, by have := q.isLt; omega⟩ : Fin 128)) fun a => ?_).trans
    (enc_block_apply x0 x1 x2 x3 x4 x5 x6 p _)
  match a with
  | ⟨0, _⟩ => show p.val = 0 + p.val; omega
  | ⟨1, _⟩ => show q.val = 0 + q.val; omega

/-- The deviation block at (p, q): output 64 + q of the encoder of row p. -/
theorem sd_block_apply (x0 : Vec Ideal S1024x784 .f32) (x1 : Vec Ideal S784x1024 .f32) (x2 : Vec Ideal S1x1024 .f32)
    (x3 : Vec Ideal S1024x512 .f32) (x4 : Vec Ideal S1x512 .f32) (x5 : Vec Ideal S512x128 .f32) (x6 : Vec Ideal S1x128 .f32)
    (p : Fin 1024) (q : Fin 64) :
    k0_pay3 (F := Ideal) x0 x1 x2 x3 x4 x5 x6 (ix2 p q)
      = encRow (fun c => x0 (ix2 p c)) (fun c j => x1 (ix2 c j)) (fun j => x2 (ix2 (0 : Fin 1) j))
          (fun c j => x3 (ix2 c j)) (fun j => x4 (ix2 (0 : Fin 1) j)) (fun c j => x5 (ix2 c j)) (fun j => x6 (ix2 (0 : Fin 1) j))
          ⟨64 + q.val, by have := q.isLt; omega⟩ := by
  unfold k0_pay3
  refine (extractStridedSlice_apply _ _ _ (ix2 p q) (ix2 p (⟨64 + q.val, by have := q.isLt; omega⟩ : Fin 128)) fun a => ?_).trans
    (enc_block_apply x0 x1 x2 x3 x4 x5 x6 p _)
  match a with
  | ⟨0, _⟩ => show p.val = 0 + p.val; omega
  | ⟨1, _⟩ => show 64 + q.val = 64 + q.val; rfl

end Cert.KernelIdeal.EncBody

end
-- ==== Proof.Forward.lean ====
/-
  The three results as whole arrays.

  `encAll` is the encoder of every batch row; the mean array is its first 64 outputs per row, the deviation array the last 64;
  the reconstruction's row r is the decoder of the latent row built from noise row r mod 16 and the statistics of batch row
  r div 16.
-/
import proofs.«126572_j27693949125146_2_alg».proof.Proof.Spec

noncomputable section

namespace Cert.Vae

open Idealize.ShloMosaic Idealize.ShloMosaic.ValueIdx

/-- The encoder's 128 outputs for every batch row. -/
def encAll (X : (⟨2, ![4096, 784]⟩ : Shape).Idx → EReal) (W1 : (⟨2, ![784, 1024]⟩ : Shape).Idx → EReal) (b1 : Fin 1024 → EReal)
    (W2 : (⟨2, ![1024, 512]⟩ : Shape).Idx → EReal) (b2 : Fin 512 → EReal)
    (W3 : (⟨2, ![512, 128]⟩ : Shape).Idx → EReal) (b3 : Fin 128 → EReal) : Fin 4096 → Fin 128 → EReal :=
  fun a => encRow (fun c => X (ix2 a c)) (fun c j => W1 (ix2 c j)) b1 (fun c j => W2 (ix2 c j)) b2 (fun c j => W3 (ix2 c j)) b3

/-- The mean array: outputs 0–63. -/
def meanOf (E : Fin 4096 → Fin 128 → EReal) : (⟨2, ![4096, 64]⟩ : Shape).Idx → EReal :=
  fun i => E ⟨(i 0).val, (i 0).isLt⟩ ⟨(i 1).val, by have h : (i 1).val < 64 := (i 1).isLt; omega⟩

/-- The deviation array: outputs 64–127. -/
def sdOf (E : Fin 4096 → Fin 128 → EReal) : (⟨2, ![4096, 64]⟩ : Shape).Idx → EReal :=
  fun i => E ⟨(i 0).val, (i 0).isLt⟩ ⟨64 + (i 1).val, by have h : (i 1).val < 64 := (i 1).isLt; omega⟩

/-- The decoder with its six parameter arrays fixed. -/
def decWith (W1 : (⟨2, ![64, 512]⟩ : Shape).Idx → EReal) (b1 : Fin 512 → EReal)
    (W2 : (⟨2, ![512, 1024]⟩ : Shape).Idx → EReal) (b2 : Fin 1024 → EReal)
    (W3 : (⟨2, ![1024, 784]⟩ : Shape).Idx → EReal) (b3 : Fin 784 → EReal) (z : Fin 64 → EReal) : Fin 784 → EReal :=
  decRow z (fun c j => W1 (ix2 c j)) b1 (fun c j => W2 (ix2 c j)) b2 (fun c j => W3 (ix2 c j)) b3

/-- The reconstruction from a mean array, a deviation array, the noise and a decoder: row r decodes the latent row of
    noise row r mod 16 and batch row r div 16. -/
def recOf (mean sd : (⟨2, ![4096, 64]⟩ : Shape).Idx → EReal) (eps : (⟨2, ![16, 64]⟩ : Shape).Idx → EReal)
    (dec : (Fin 64 → EReal) → Fin 784 → EReal) : (⟨2, ![65536, 784]⟩ : Shape).Idx → EReal :=
  fun i => dec
    (latentRow (fun j => eps (ix2 (⟨(i 0).val % 16, Nat.mod_lt _ (by decide)⟩ : Fin 16) j))
      (fun j => sd (ix2 (⟨(i 0).val / 16, by have h : (i 0).val < 65536 := (i 0).isLt; omega⟩ : Fin 4096) j))
      (fun j => mean (ix2 (⟨(i 0).val / 16, by have h : (i 0).val < 65536 := (i 0).isLt; omega⟩ : Fin 4096) j)))
    ⟨(i 1).val, (i 1).isLt⟩

/-! ## The three results from the fourteen arguments -/

section OfArgs

variable (a0 : (⟨2, ![4096, 784]⟩ : Shape).Idx → EReal) (a1 : (⟨2, ![16, 64]⟩ : Shape).Idx → EReal)
  (a2 : (⟨2, ![784, 1024]⟩ : Shape).Idx → EReal) (a3 : (⟨1, ![1024]⟩ : Shape).Idx → EReal)
  (a4 : (⟨2, ![1024, 512]⟩ : Shape).Idx → EReal) (a5 : (⟨1, ![512]⟩ : Shape).Idx → EReal)
  (a6 : (⟨2, ![512, 128]⟩ : Shape).Idx → EReal) (a7 : (⟨1, ![128]⟩ : Shape).Idx → EReal)
  (a8 : (⟨2, ![64, 512]⟩ : Shape).Idx → EReal) (a9 : (⟨1, ![512]⟩ : Shape).Idx → EReal)
  (a10 : (⟨2, ![512, 1024]⟩ : Shape).Idx → EReal) (a11 : (⟨1, ![1024]⟩ : Shape).Idx → EReal)
  (a12 : (⟨2, ![1024, 784]⟩ : Shape).Idx → EReal) (a13 : (⟨1, ![784]⟩ : Shape).Idx → EReal)

/-- The encoder of every batch row, from the input and the encoder's six parameter arrays. -/
def encOfArgs : Fin 4096 → Fin 128 → EReal :=
  encAll a0 a2 (fun j => a3 (ix1 j)) a4 (fun j => a5 (ix1 j)) a6 (fun j => a7 (ix1 j))

/-- The mean result. -/
def meanOfArgs : (⟨2, ![4096, 64]⟩ : Shape).Idx → EReal := meanOf (encOfArgs a0 a2 a3 a4 a5 a6 a7)

/-- The deviation result. -/
def sdOfArgs : (⟨2, ![4096, 64]⟩ : Shape).Idx → EReal := sdOf (encOfArgs a0 a2 a3 a4 a5 a6 a7)

/-- The reconstruction result. -/
def recOfArgs : (⟨2, ![65536, 784]⟩ : Shape).Idx → EReal :=
  recOf (meanOfArgs a0 a2 a3 a4 a5 a6 a7) (sdOfArgs a0 a2 a3 a4 a5 a6 a7) a1
    (decWith a8 (fun j => a9 (ix1 j)) a10 (fun j => a11 (ix1 j)) a12 (fun j => a13 (ix1 j)))

end OfArgs

end Cert.Vae

end
-- ==== Proof.EncValue.lean ====
/-
  The encoder region's two output arrays after its last write-back.

  The grid has four points; point t stages rows 1024·t … 1024·t + 1023 of the input and of both outputs, and the whole of
  every parameter array. What it writes back is, row by row, the encoder of the staged input rows: the rows of the mean and
  deviation arrays of the region's entry contents that the block covers. The four blocks tile each output array, so after
  the last write-back the arrays are the mean and deviation arrays of the entry contents.
-/
import proofs.«126572_j27693949125146_2_alg».proof.Proof.Gen.KernelIdeal.Frame
import proofs.«126572_j27693949125146_2_alg».proof.Proof.EncBody
import proofs.«126572_j27693949125146_2_alg».proof.Proof.Forward
import Idealize.ShloMosaic.Lib.Pipeline.Value

set_option maxRecDepth 16384

noncomputable section

namespace Cert.KernelIdeal.EncValue

open Cert.KernelIdeal Cert.KernelIdeal.Gen Idealize.ShloMosaic Idealize.ShloMosaic.TcCoe Idealize.SL.Sem
open Idealize.ShloMosaic.ValueIdx Cert.Vae
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The encoder of every batch row of the region's entry contents (the biases are the [1, n] rows the host reshaped). -/
def encEntry (c : Dev nD) : Fin 4096 → Fin 128 → EReal :=
  encAll (V c main_arg0) (V c main_arg2) (fun j => V c main_v0 (ix2 (0 : Fin 1) j)) (V c main_arg4)
    (fun j => V c main_v1 (ix2 (0 : Fin 1) j)) (V c main_arg6) (fun j => V c main_v2 (ix2 (0 : Fin 1) j))

/-- The index maps over the grid: the input and both outputs move one block of rows per point, every parameter array is
    staged whole. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0 :=
  (by decide +kernel : ∀ t : Fin grid0.N, _)

/-- Point `t`'s mean block, at (p, q), is the mean array of the entry contents at the place the block puts (p, q). -/
theorem mean_point (c : Dev nD) (t : Fin cfg0.N) (p : Fin 1024) (q : Fin 64) :
    k0_pay2 (F := Ideal) (iblk0 V c 0 t) (iblk0 V c 1 t) (iblk0 V c 2 t) (iblk0 V c 3 t) (iblk0 V c 4 t) (iblk0 V c 5 t) (iblk0 V c 6 t) (ix2 p q)
      = meanOf (encEntry V c) (((cfg0.win 7).blk t).view.emb (ix2 p q)) := by
  obtain ⟨e00, e01, e10, e11, e20, e21, e30, e31, e40, e41, e50, e51, e60, e61, e70, e71, e80, e81⟩ := idx_facts0 t
  refine (EncBody.mean_block_apply _ _ _ _ _ _ _ p q).trans ?_
  have h0 : (fun k : Fin 784 => iblk0 V c 0 t (ix2 p k))
      = fun k => V c main_arg0 (ix2 (⟨(((cfg0.win 7).blk t).view.emb (ix2 p q) 0).val, (((cfg0.win 7).blk t).view.emb (ix2 p q) 0).isLt⟩ : Fin 4096) k) := by
    funext k
    show V c main_arg0 (((cfg0.win 0).blk t).view.emb (ix2 p k)) = _
    refine congrArg _ (funext fun a => Fin.ext ?_)
    match a with
    | ⟨0, _⟩ => show win0_0.index t (0 : Fin 2) * 1024 + 1 * p.val = win0_7.index t (0 : Fin 2) * 1024 + 1 * p.val; omega
    | ⟨1, _⟩ => show win0_0.index t (1 : Fin 2) * 784 + 1 * k.val = k.val; omega
  have h1 : (fun (k : Fin 784) (j : Fin 1024) => iblk0 V c 1 t (ix2 k j)) = fun k j => V c main_arg2 (ix2 k j) := by
    funext k j
    show V c main_arg2 (((cfg0.win 1).blk t).view.emb (ix2 k j)) = _
    refine congrArg _ (funext fun a => Fin.ext ?_)
    match a with
    | ⟨0, _⟩ => show win0_1.index t (0 : Fin 2) * 784 + 1 * k.val = k.val; omega
    | ⟨1, _⟩ => show win0_1.index t (1 : Fin 2) * 1024 + 1 * j.val = j.val; omega
  have h2 : (fun j : Fin 1024 => iblk0 V c 2 t (ix2 (0 : Fin 1) j)) = fun j => V c main_v0 (ix2 (0 : Fin 1) j) := by
    funext j
    show V c main_v0 (((cfg0.win 2).blk t).view.emb (ix2 (0 : Fin 1) j)) = _
    refine congrArg _ (funext fun a => Fin.ext ?_)
    match a with
    | ⟨0, _⟩ => show win0_2.index t (0 : Fin 2) * 1 + 1 * 0 = 0; omega
    | ⟨1, _⟩ => show win0_2.index t (1 : Fin 2) * 1024 + 1 * j.val = j.val; omega
  have h3 : (fun (k : Fin 1024) (j : Fin 512) => iblk0 V c 3 t (ix2 k j)) = fun k j => V c main_arg4 (ix2 k j) := by
    funext k j
    show V c main_arg4 (((cfg0.win 3).blk t).view.emb (ix2 k j)) = _
    refine congrArg _ (funext fun a => Fin.ext ?_)
    match a with
    | ⟨0, _⟩ => show win0_3.index t (0 : Fin 2) * 1024 + 1 * k.val = k.val; omega
    | ⟨1, _⟩ => show win0_3.index t (1 : Fin 2) * 512 + 1 * j.val = j.val; omega
  have h4 : (fun j : Fin 512 => iblk0 V c 4 t (ix2 (0 : Fin 1) j)) = fun j => V c main_v1 (ix2 (0 : Fin 1) j) := by
    funext j
    show V c main_v1 (((cfg0.win 4).blk t).view.emb (ix2 (0 : Fin 1) j)) = _
    refine congrArg _ (funext fun a => Fin.ext ?_)
    match a with
    | ⟨0, _⟩ => show win0_4.index t (0 : Fin 2) * 1 + 1 * 0 = 0; omega
    | ⟨1, _⟩ => show win0_4.index t (1 : Fin 2) * 512 + 1 * j.val = j.val; omega
  have h5 : (fun (k : Fin 512) (j : Fin 128) => iblk0 V c 5 t (ix2 k j)) = fun k j => V c main_arg6 (ix2 k j) := by
    funext k j
    show V c main_arg6 (((cfg0.win 5).blk t).view.emb (ix2 k j)) = _
    refine congrArg _ (funext fun a => Fin.ext ?_)
    match a with
    | ⟨0, _⟩ => show win0_5.index t (0 : Fin 2) * 512 + 1 * k.val = k.val; omega
    | ⟨1, _⟩ => show win0_5.index t (1 : Fin 2) * 128 + 1 * j.val = j.val; omega
  have h6 : (fun j : Fin 128 => iblk0 V c 6 t (ix2 (0 : Fin 1) j)) = fun j => V c main_v2 (ix2 (0 : Fin 1) j) := by
    funext j
    show V c main_v2 (((cfg0.win 6).blk t).view.emb (ix2 (0 : Fin 1) j)) = _
    refine congrArg _ (funext fun a => Fin.ext ?_)
    match a with
    | ⟨0, _⟩ => show win0_6.index t (0 : Fin 2) * 1 + 1 * 0 = 0; omega
    | ⟨1, _⟩ => show win0_6.index t (1 : Fin 2) * 128 + 1 * j.val = j.val; omega
  have hq : (⟨q.val, by have := q.isLt; omega⟩ : Fin 128)
      = ⟨(((cfg0.win 7).blk t).view.emb (ix2 p q) 1).val, by
          have h : (((cfg0.win 7).blk t).view.emb (ix2 p q) 1).val < 64 := (((cfg0.win 7).blk t).view.emb (ix2 p q) 1).isLt
          omega⟩ := by
    apply Fin.ext
    show q.val = (win0_7.index t (1 : Fin 2) * 64 + 1 * q.val)
    omega
  unfold meanOf encEntry encAll
  rw [h0, h1, h2, h3, h4, h5, h6, hq]

/-- Point `t`'s sd block, at (p, q), is the sd array of the entry contents at the place the block puts (p, q). -/
theorem sd_point (c : Dev nD) (t : Fin cfg0.N) (p : Fin 1024) (q : Fin 64) :
    k0_pay3 (F := Ideal) (iblk0 V c 0 t) (iblk0 V c 1 t) (iblk0 V c 2 t) (iblk0 V c 3 t) (iblk0 V c 4 t) (iblk0 V c 5 t) (iblk0 V c 6 t) (ix2 p q)
      = sdOf (encEntry V c) (((cfg0.win 8).blk t).view.emb (ix2 p q)) := by
  obtain ⟨e00, e01, e10, e11, e20, e21, e30, e31, e40, e41, e50, e51, e60, e61, e70, e71, e80, e81⟩ := idx_facts0 t
  refine (EncBody.sd_block_apply _ _ _ _ _ _ _ p q).trans ?_
  have h0 : (fun k : Fin 784 => iblk0 V c 0 t (ix2 p k))
      = fun k => V c main_arg0 (ix2 (⟨(((cfg0.win 8).blk t).view.emb (ix2 p q) 0).val, (((cfg0.win 8).blk t).view.emb (ix2 p q) 0).isLt⟩ : Fin 4096) k) := by
    funext k
    show V c main_arg0 (((cfg0.win 0).blk t).view.emb (ix2 p k)) = _
    refine congrArg _ (funext fun a => Fin.ext ?_)
    match a with
    | ⟨0, _⟩ => show win0_0.index t (0 : Fin 2) * 1024 + 1 * p.val = win0_8.index t (0 : Fin 2) * 1024 + 1 * p.val; omega
    | ⟨1, _⟩ => show win0_0.index t (1 : Fin 2) * 784 + 1 * k.val = k.val; omega
  have h1 : (fun (k : Fin 784) (j : Fin 1024) => iblk0 V c 1 t (ix2 k j)) = fun k j => V c main_arg2 (ix2 k j) := by
    funext k j
    show V c main_arg2 (((cfg0.win 1).blk t).view.emb (ix2 k j)) = _
    refine congrArg _ (funext fun a => Fin.ext ?_)
    match a with
    | ⟨0, _⟩ => show win0_1.index t (0 : Fin 2) * 784 + 1 * k.val = k.val; omega
    | ⟨1, _⟩ => show win0_1.index t (1 : Fin 2) * 1024 + 1 * j.val = j.val; omega
  have h2 : (fun j : Fin 1024 => iblk0 V c 2 t (ix2 (0 : Fin 1) j)) = fun j => V c main_v0 (ix2 (0 : Fin 1) j) := by
    funext j
    show V c main_v0 (((cfg0.win 2).blk t).view.emb (ix2 (0 : Fin 1) j)) = _
    refine congrArg _ (funext fun a => Fin.ext ?_)
    match a with
    | ⟨0, _⟩ => show win0_2.index t (0 : Fin 2) * 1 + 1 * 0 = 0; omega
    | ⟨1, _⟩ => show win0_2.index t (1 : Fin 2) * 1024 + 1 * j.val = j.val; omega
  have h3 : (fun (k : Fin 1024) (j : Fin 512) => iblk0 V c 3 t (ix2 k j)) = fun k j => V c main_arg4 (ix2 k j) := by
    funext k j
    show V c main_arg4 (((cfg0.win 3).blk t).view.emb (ix2 k j)) = _
    refine congrArg _ (funext fun a => Fin.ext ?_)
    match a with
    | ⟨0, _⟩ => show win0_3.index t (0 : Fin 2) * 1024 + 1 * k.val = k.val; omega
    | ⟨1, _⟩ => show win0_3.index t (1 : Fin 2) * 512 + 1 * j.val = j.val; omega
  have h4 : (fun j : Fin 512 => iblk0 V c 4 t (ix2 (0 : Fin 1) j)) = fun j => V c main_v1 (ix2 (0 : Fin 1) j) := by
    funext j
    show V c main_v1 (((cfg0.win 4).blk t).view.emb (ix2 (0 : Fin 1) j)) = _
    refine congrArg _ (funext fun a => Fin.ext ?_)
    match a with
    | ⟨0, _⟩ => show win0_4.index t (0 : Fin 2) * 1 + 1 * 0 = 0; omega
    | ⟨1, _⟩ => show win0_4.index t (1 : Fin 2) * 512 + 1 * j.val = j.val; omega
  have h5 : (fun (k : Fin 512) (j : Fin 128) => iblk0 V c 5 t (ix2 k j)) = fun k j => V c main_arg6 (ix2 k j) := by
    funext k j
    show V c main_arg6 (((cfg0.win 5).blk t).view.emb (ix2 k j)) = _
    refine congrArg _ (funext fun a => Fin.ext ?_)
    match a with
    | ⟨0, _⟩ => show win0_5.index t (0 : Fin 2) * 512 + 1 * k.val = k.val; omega
    | ⟨1, _⟩ => show win0_5.index t (1 : Fin 2) * 128 + 1 * j.val = j.val; omega
  have h6 : (fun j : Fin 128 => iblk0 V c 6 t (ix2 (0 : Fin 1) j)) = fun j => V c main_v2 (ix2 (0 : Fin 1) j) := by
    funext j
    show V c main_v2 (((cfg0.win 6).blk t).view.emb (ix2 (0 : Fin 1) j)) = _
    refine congrArg _ (funext fun a => Fin.ext ?_)
    match a with
    | ⟨0, _⟩ => show win0_6.index t (0 : Fin 2) * 1 + 1 * 0 = 0; omega
    | ⟨1, _⟩ => show win0_6.index t (1 : Fin 2) * 128 + 1 * j.val = j.val; omega
  have hq : (⟨64 + q.val, by have := q.isLt; omega⟩ : Fin 128)
      = ⟨64 + (((cfg0.win 8).blk t).view.emb (ix2 p q) 1).val, by
          have h : (((cfg0.win 8).blk t).view.emb (ix2 p q) 1).val < 64 := (((cfg0.win 8).blk t).view.emb (ix2 p q) 1).isLt
          omega⟩ := by
    apply Fin.ext
    show 64 + q.val = 64 + (win0_8.index t (1 : Fin 2) * 64 + 1 * q.val)
    omega
  unfold sdOf encEntry encAll
  rw [h0, h1, h2, h3, h4, h5, h6, hq]

/-- What point `t` writes back to the mean array is block `t` of the mean array of the entry contents. -/
theorem flushed_mean (c : Dev nD) (t : Fin cfg0.N) :
    (dat0 V c).flushed 7 t = ((cfg0.win 7).blk t).view.read (Elt Ideal) (meanOf (encEntry V c)) := by
  show (cfg0.win 7).cut (grid0.coords t) ((dat0 V c).after 7 t) = _
  rw [after0_7]
  unfold out0_7
  rw [View.canon_unit_zero hz]
  simp only [View.ld_unit_zero (S := S1024x784) hz, View.ld_unit_zero (S := S784x1024) hz, View.ld_unit_zero (S := S1x1024) hz,
    View.ld_unit_zero (S := S1024x512) hz, View.ld_unit_zero (S := S1x512) hz, View.ld_unit_zero (S := S512x128) hz,
    View.ld_unit_zero (S := S1x128) hz]
  funext y
  obtain ⟨p, q, rfl⟩ : ∃ (p : Fin 1024) (q : Fin 64), y = ix2 p q := ⟨y 0, y 1, eq_ix2 y⟩
  exact mean_point V c t p q

/-- What point `t` writes back to the deviation array is block `t` of the deviation array of the entry contents. -/
theorem flushed_sd (c : Dev nD) (t : Fin cfg0.N) :
    (dat0 V c).flushed 8 t = ((cfg0.win 8).blk t).view.read (Elt Ideal) (sdOf (encEntry V c)) := by
  show (cfg0.win 8).cut (grid0.coords t) ((dat0 V c).after 8 t) = _
  rw [after0_8]
  unfold out0_8
  rw [View.canon_unit_zero hz]
  simp only [View.ld_unit_zero (S := S1024x784) hz, View.ld_unit_zero (S := S784x1024) hz, View.ld_unit_zero (S := S1x1024) hz,
    View.ld_unit_zero (S := S1024x512) hz, View.ld_unit_zero (S := S1x512) hz, View.ld_unit_zero (S := S512x128) hz,
    View.ld_unit_zero (S := S1x128) hz]
  funext y
  obtain ⟨p, q, rfl⟩ : ∃ (p : Fin 1024) (q : Fin 64), y = ix2 p q := ⟨y 0, y 1, eq_ix2 y⟩
  exact sd_point V c t p q

/-- An index of the array is in point `t`'s block iff each coordinate is in the block's range on its axis. -/
theorem mem_blk_mean (t : Fin cfg0.N) (i : S4096x64.Idx) :
    i ∈ ((cfg0.win 7).blk t).view.set ↔ ∀ a : Fin 2, win0_7.index t a * S1024x64.size a ≤ (i a).val ∧ (i a).val < win0_7.index t a * S1024x64.size a + S1024x64.size a := by
  show i ∈ ((View.whole main_v3_0).slice (win0_7.rect t)).set ↔ _
  rw [View.set_slice_whole, Rect.mem_set_unit]
  exact Iff.rfl

/-- Every index of the array is in the block of the point its row falls in: row r belongs to point r div 1024. -/
theorem cover_mean (i : S4096x64.Idx) :
    ∃ t : Fin cfg0.N, (cfg0.win 7).flush t = true ∧ i ∈ ((cfg0.win 7).blk t).view.set := by
  have hN : grid0.N = 4 := N_0
  have hi0 : (i 0).val < 4096 := (i 0).isLt
  have hi1 : (i 1).val < 64 := (i 1).isLt
  refine ⟨⟨(i 0).val / 1024, by show (i 0).val / 1024 < grid0.N; omega⟩, flush0_7 _, ?_⟩
  rw [mem_blk_mean]
  obtain ⟨e00, e01, e10, e11, e20, e21, e30, e31, e40, e41, e50, e51, e60, e61, e70, e71, e80, e81⟩ := idx_facts0 (⟨(i 0).val / 1024, by show (i 0).val / 1024 < grid0.N; omega⟩ : Fin cfg0.N)
  intro a
  match a with
  | ⟨0, _⟩ =>
    show win0_7.index _ (0 : Fin 2) * 1024 ≤ (i 0).val ∧ (i 0).val < win0_7.index _ (0 : Fin 2) * 1024 + 1024
    rw [e70]
    show (i 0).val / 1024 * 1024 ≤ (i 0).val ∧ (i 0).val < (i 0).val / 1024 * 1024 + 1024
    omega
  | ⟨1, _⟩ =>
    show win0_7.index _ (1 : Fin 2) * 64 ≤ (i 1).val ∧ (i 1).val < win0_7.index _ (1 : Fin 2) * 64 + 64
    rw [e71]
    omega

/-- An index of the array is in point `t`'s block iff each coordinate is in the block's range on its axis. -/
theorem mem_blk_sd (t : Fin cfg0.N) (i : S4096x64.Idx) :
    i ∈ ((cfg0.win 8).blk t).view.set ↔ ∀ a : Fin 2, win0_8.index t a * S1024x64.size a ≤ (i a).val ∧ (i a).val < win0_8.index t a * S1024x64.size a + S1024x64.size a := by
  show i ∈ ((View.whole main_v3_1).slice (win0_8.rect t)).set ↔ _
  rw [View.set_slice_whole, Rect.mem_set_unit]
  exact Iff.rfl

/-- Every index of the array is in the block of the point its row falls in: row r belongs to point r div 1024. -/
theorem cover_sd (i : S4096x64.Idx) :
    ∃ t : Fin cfg0.N, (cfg0.win 8).flush t = true ∧ i ∈ ((cfg0.win 8).blk t).view.set := by
  have hN : grid0.N = 4 := N_0
  have hi0 : (i 0).val < 4096 := (i 0).isLt
  have hi1 : (i 1).val < 64 := (i 1).isLt
  refine ⟨⟨(i 0).val / 1024, by show (i 0).val / 1024 < grid0.N; omega⟩, flush0_8 _, ?_⟩
  rw [mem_blk_sd]
  obtain ⟨e00, e01, e10, e11, e20, e21, e30, e31, e40, e41, e50, e51, e60, e61, e70, e71, e80, e81⟩ := idx_facts0 (⟨(i 0).val / 1024, by show (i 0).val / 1024 < grid0.N; omega⟩ : Fin cfg0.N)
  intro a
  match a with
  | ⟨0, _⟩ =>
    show win0_8.index _ (0 : Fin 2) * 1024 ≤ (i 0).val ∧ (i 0).val < win0_8.index _ (0 : Fin 2) * 1024 + 1024
    rw [e80]
    show (i 0).val / 1024 * 1024 ≤ (i 0).val ∧ (i 0).val < (i 0).val / 1024 * 1024 + 1024
    omega
  | ⟨1, _⟩ =>
    show win0_8.index _ (1 : Fin 2) * 64 ≤ (i 1).val ∧ (i 1).val < win0_8.index _ (1 : Fin 2) * 64 + 64
    rw [e81]
    omega

/-- After the last write-back the first output array is the mean array of the entry contents. -/
theorem final_mean (c : Dev nD) : (dat0 V c).arrAt 7 cfg0.N = meanOf (encEntry V c) :=
  (dat0 V c).arrAt_eq_of_cover 7 (meanOf (encEntry V c)) (fun t _ => flushed_mean V c t) cover_mean

/-- After the last write-back the second output array is the deviation array of the entry contents. -/
theorem final_sd (c : Dev nD) : (dat0 V c).arrAt 8 cfg0.N = sdOf (encEntry V c) :=
  (dat0 V c).arrAt_eq_of_cover 8 (sdOf (encEntry V c)) (fun t _ => flushed_sd V c t) cover_sd

end Cert.KernelIdeal.EncValue

end
-- ==== Proof.DecBody.lean ====
/-
  The decoder kernel's body, entry by entry.

  On a block of 128 batch rows the body first builds the 2048 latent rows of the block: row 16·b + l is noise row l scaled by
  the deviation of batch row b and shifted by its mean (the noise broadcast over the batch axis, the two statistics over
  the noise axis, and the [128, 16, 64] result flattened row-major). Then, for each latent row, three dense layers with a
  logistic after each — the decoder of that row.
-/
import proofs.«126572_j27693949125146_2_alg».proof.Proof.Gen.KernelIdeal.Skeleton
import proofs.«126572_j27693949125146_2_alg».proof.Proof.Spec

noncomputable section

namespace Cert.KernelIdeal.DecBody

open Cert.KernelIdeal Cert.KernelIdeal.Gen Idealize.ShloMosaic Idealize.ShloMosaic.ValueIdx Cert.Vae

/-- The noise, given a leading unit axis and broadcast over the 128 batch rows, read at (b, l, j): noise entry (l, j). -/
theorem noise_broadcast_apply {α : Type} (e : S16x64.Idx → α) (b : Fin 128) (l : Fin 16) (j : Fin 64) :
    broadcastTo S128x16x64 (shapeCast S1x16x64 e shapeCasts_S16x64_S1x16x64) broadcasts_S1x16x64_S128x16x64 (ix3 b l j)
      = e (ix2 l j) := by
  refine (broadcastTo_apply _ _ (ix3 b l j) (ix3 (0 : Fin 1) l j) fun a => ?_).trans
    (shapeCast_apply e _ (ix3 (0 : Fin 1) l j) (ix2 l j) ?_)
  · match a with
    | ⟨0, _⟩ => show (0 : Nat) = if (1 : Nat) = 1 then 0 else _; rw [if_pos rfl]
    | ⟨1, _⟩ => show l.val = if (16 : Nat) = 1 then 0 else l.val; rw [if_neg (by decide)]
    | ⟨2, _⟩ => show j.val = if (64 : Nat) = 1 then 0 else j.val; rw [if_neg (by decide)]
  · rw [Shape.rowMajor_val_two, Shape.rowMajor_val_three]
    show l.val * 64 + j.val = (0 * 16 + l.val) * 64 + j.val
    omega

/-- A per-batch-row statistic, given a middle unit axis and broadcast over the 16 noise rows, read at (b, l, j): entry (b, j). -/
theorem stat_broadcast_apply {α : Type} (v : S128x64.Idx → α) (b : Fin 128) (l : Fin 16) (j : Fin 64) :
    broadcastTo S128x16x64 (shapeCast S128x1x64 (shapeCast S128x64 v shapeCasts_S128x64_S128x64) shapeCasts_S128x64_S128x1x64)
        broadcasts_S128x1x64_S128x16x64 (ix3 b l j)
      = v (ix2 b j) := by
  rw [shapeCast_self]
  refine (broadcastTo_apply _ _ (ix3 b l j) (ix3 b (0 : Fin 1) j) fun a => ?_).trans
    (shapeCast_apply v _ (ix3 b (0 : Fin 1) j) (ix2 b j) ?_)
  · match a with
    | ⟨0, _⟩ => show b.val = if (128 : Nat) = 1 then 0 else b.val; rw [if_neg (by decide)]
    | ⟨1, _⟩ => show (0 : Nat) = if (1 : Nat) = 1 then 0 else _; rw [if_pos rfl]
    | ⟨2, _⟩ => show j.val = if (64 : Nat) = 1 then 0 else j.val; rw [if_neg (by decide)]
  · rw [Shape.rowMajor_val_two, Shape.rowMajor_val_three]
    show b.val * 64 + j.val = (b.val * 1 + 0) * 64 + j.val
    omega

/-- The block's 2048 latent rows, as the body spells them from the mean block `v0`, the deviation block `v2` and the
    noise `v4`. -/
def latentBlock (v0 v2 : Vec Ideal S128x64 .f32) (v4 : Vec Ideal S16x64 .f32) : FVec Ideal S2048x64 .f32 :=
  shapeCast S2048x64
    (addf
      (mulf (broadcastTo S128x16x64 (shapeCast S1x16x64 v4 shapeCasts_S16x64_S1x16x64) broadcasts_S1x16x64_S128x16x64)
        (broadcastTo S128x16x64 (shapeCast S128x1x64 (shapeCast S128x64 v2 shapeCasts_S128x64_S128x64) shapeCasts_S128x64_S128x1x64)
          broadcasts_S128x1x64_S128x16x64))
      (broadcastTo S128x16x64 (shapeCast S128x1x64 (shapeCast S128x64 v0 shapeCasts_S128x64_S128x64) shapeCasts_S128x64_S128x1x64)
        broadcasts_S128x1x64_S128x16x64))
    shapeCasts_S128x16x64_S2048x64

/-- Latent row r of the block is noise row r mod 16 scaled and shifted by the statistics of batch row r div 16. -/
theorem latentBlock_row (v0 v2 : Vec Ideal S128x64 .f32) (v4 : Vec Ideal S16x64 .f32) (r : Fin 2048) :
    (fun j : Fin 64 => latentBlock v0 v2 v4 (ix2 r j))
      = latentRow (fun j => v4 (ix2 (⟨r.val % 16, Nat.mod_lt _ (by decide)⟩ : Fin 16) j))
          (fun j => v2 (ix2 (⟨r.val / 16, by have := r.isLt; omega⟩ : Fin 128) j))
          (fun j => v0 (ix2 (⟨r.val / 16, by have := r.isLt; omega⟩ : Fin 128) j)) := by
  funext j
  unfold latentBlock latentRow
  refine (shapeCast_apply _ _ (ix2 r j)
    (ix3 (⟨r.val / 16, by have := r.isLt; omega⟩ : Fin 128) (⟨r.val % 16, Nat.mod_lt _ (by decide)⟩ : Fin 16) j) ?_).trans ?_
  · rw [Shape.rowMajor_val_two, Shape.rowMajor_val_three]
    show ((r.val / 16) * 16 + r.val % 16) * 64 + j.val = r.val * 64 + j.val
    have := Nat.div_add_mod r.val 16
    omega
  · show (broadcastTo S128x16x64 (shapeCast S1x16x64 v4 shapeCasts_S16x64_S1x16x64) broadcasts_S1x16x64_S128x16x64 _ : EReal)
        * broadcastTo S128x16x64 (shapeCast S128x1x64 (shapeCast S128x64 v2 shapeCasts_S128x64_S128x64) shapeCasts_S128x64_S128x1x64)
            broadcasts_S128x1x64_S128x16x64 _
        + broadcastTo S128x16x64 (shapeCast S128x1x64 (shapeCast S128x64 v0 shapeCasts_S128x64_S128x64) shapeCasts_S128x64_S128x1x64)
            broadcasts_S128x1x64_S128x16x64 _ = _
    rw [noise_broadcast_apply, stat_broadcast_apply, stat_broadcast_apply]

/-- The stored block at (r, q): output q of the decoder of latent row r. -/
theorem dec_block_apply (v0 v2 : Vec Ideal S128x64 .f32) (v4 : Vec Ideal S16x64 .f32) (v15 : Vec Ideal S64x512 .f32)
    (v18 : Vec Ideal S1x512 .f32) (v24 : Vec Ideal S512x1024 .f32) (v27 : Vec Ideal S1x1024 .f32) (v33 : Vec Ideal S1024x784 .f32)
    (v36 : Vec Ideal S1x784 .f32) (r : Fin 2048) (q : Fin 784) :
    k1_pay1 (F := Ideal) (k1_pay2 v0 v2 v4 v15 v18 v24 v27 v33) (k1_pay3 v36) (ix2 r q)
      = decRow
          (latentRow (fun j => v4 (ix2 (⟨r.val % 16, Nat.mod_lt _ (by decide)⟩ : Fin 16) j))
            (fun j => v2 (ix2 (⟨r.val / 16, by have := r.isLt; omega⟩ : Fin 128) j))
            (fun j => v0 (ix2 (⟨r.val / 16, by have := r.isLt; omega⟩ : Fin 128) j)))
          (fun c j => v15 (ix2 c j)) (fun j => v18 (ix2 (0 : Fin 1) j)) (fun c j => v24 (ix2 c j)) (fun j => v27 (ix2 (0 : Fin 1) j))
          (fun c j => v33 (ix2 c j)) (fun j => v36 (ix2 (0 : Fin 1) j)) q := by
  have e : k1_pay1 (F := Ideal) (k1_pay2 v0 v2 v4 v15 v18 v24 v27 v33) (k1_pay3 v36)
      = logistic (kernelLayer (logistic (kernelLayer (logistic (kernelLayer (latentBlock v0 v2 v4) v15 v18
            shapeCasts_S1x512_S1x512 broadcasts_S1x512_S2048x512 bitsLt_bf16_f32))
          v24 v27 shapeCasts_S1x1024_S1x1024 broadcasts_S1x1024_S2048x1024 bitsLt_bf16_f32))
          v33 v36 shapeCasts_S1x784_S1x784 broadcasts_S1x784_S2048x784 bitsLt_bf16_f32) := rfl
  rw [e]
  show Ideal.logistic (kernelLayer _ v33 v36 shapeCasts_S1x784_S1x784 broadcasts_S1x784_S2048x784 bitsLt_bf16_f32 (ix2 r q)) = _
  rw [kernelLayer_apply, sigmoid_kernelLayer_row, sigmoid_kernelLayer_row, latentBlock_row]
  rfl

end Cert.KernelIdeal.DecBody

end
-- ==== Proof.DecValue.lean ====
/-
  The decoder region's output array after its last write-back.

  The grid has thirty-two points; point t stages rows 128·t … 128·t + 127 of the mean and deviation arrays, the whole noise
  and every parameter array, and rows 2048·t … 2048·t + 2047 of the output. Row r of its block is the decoder of the latent
  row built from noise row r mod 16 and staged batch row r div 16 — and since 2048 = 16 · 128, that is array row
  2048·t + r built from noise row (2048·t + r) mod 16 and batch row (2048·t + r) div 16: the block is the block of the
  reconstruction of the region's entry contents. The thirty-two blocks tile the output array.
-/
import proofs.«126572_j27693949125146_2_alg».proof.Proof.Gen.KernelIdeal.Frame
import proofs.«126572_j27693949125146_2_alg».proof.Proof.DecBody
import proofs.«126572_j27693949125146_2_alg».proof.Proof.Forward
import Idealize.ShloMosaic.Lib.Pipeline.Value

set_option maxRecDepth 16384

noncomputable section

namespace Cert.KernelIdeal.DecValue

open Cert.KernelIdeal Cert.KernelIdeal.Gen Idealize.ShloMosaic Idealize.ShloMosaic.TcCoe Idealize.SL.Sem
open Idealize.ShloMosaic.ValueIdx Cert.Vae
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The decoder with the parameter arrays of the region's entry contents (the biases are the [1, n] rows the host reshaped). -/
def decEntry (c : Dev nD) : (Fin 64 → EReal) → Fin 784 → EReal :=
  decWith (V c main_arg8) (fun j => V c main_v4 (ix2 (0 : Fin 1) j)) (V c main_arg10) (fun j => V c main_v5 (ix2 (0 : Fin 1) j))
    (V c main_arg12) (fun j => V c main_v6 (ix2 (0 : Fin 1) j))

/-- The reconstruction of the region's entry contents: from the mean and deviation arrays and the noise it finds. -/
def recEntry (c : Dev nD) : S65536x784.Idx → EReal :=
  recOf (V c main_v3_0) (V c main_v3_1) (V c main_arg1) (decEntry V c)

/-- The index maps over the grid: the two statistics and the output move one block of rows per point, the noise and every
    parameter array are staged whole. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = t.val ∧ win1_9.index t (1 : Fin 2) = 0 :=
  (by decide +kernel : ∀ t : Fin grid1.N, _)

/-- Point `t`'s output block, at (r, q), is the reconstruction of the entry contents at the place the block puts (r, q). -/
theorem rec_point (c : Dev nD) (t : Fin cfg1.N) (r : Fin 2048) (q : Fin 784) :
    k1_pay1 (F := Ideal)
        (k1_pay2 (iblk1 V c 0 t) (iblk1 V c 1 t) (iblk1 V c 2 t) (iblk1 V c 3 t) (iblk1 V c 4 t) (iblk1 V c 5 t) (iblk1 V c 6 t) (iblk1 V c 7 t))
        (k1_pay3 (iblk1 V c 8 t)) (ix2 r q)
      = recEntry V c (((cfg1.win 9).blk t).view.emb (ix2 r q)) := by
  obtain ⟨d00, d01, d10, d11, d20, d21, d30, d31, d40, d41, d50, d51, d60, d61, d70, d71, d80, d81, d90, d91⟩ := idx_facts1 t
  have hr : r.val < 2048 := r.isLt
  have hI : (((cfg1.win 9).blk t).view.emb (ix2 r q) 0).val < 65536 := (((cfg1.win 9).blk t).view.emb (ix2 r q) 0).isLt
  refine (DecBody.dec_block_apply _ _ _ _ _ _ _ _ _ r q).trans ?_
  have hE : (fun j : Fin 64 => iblk1 V c 2 t (ix2 (⟨r.val % 16, Nat.mod_lt _ (by decide)⟩ : Fin 16) j))
      = fun j => V c main_arg1 (ix2 (⟨(((cfg1.win 9).blk t).view.emb (ix2 r q) 0).val % 16, Nat.mod_lt _ (by decide)⟩ : Fin 16) j) := by
    funext j
    show V c main_arg1 (((cfg1.win 2).blk t).view.emb (ix2 (⟨r.val % 16, Nat.mod_lt _ (by decide)⟩ : Fin 16) j)) = _
    refine congrArg _ (funext fun a => Fin.ext ?_)
    match a with
    | ⟨0, _⟩ =>
      show win1_2.index t (0 : Fin 2) * 16 + 1 * (r.val % 16) = (win1_9.index t (0 : Fin 2) * 2048 + 1 * r.val) % 16
      omega
    | ⟨1, _⟩ => show win1_2.index t (1 : Fin 2) * 64 + 1 * j.val = j.val; omega
  have hS : (fun j : Fin 64 => iblk1 V c 1 t (ix2 (⟨r.val / 16, by omega⟩ : Fin 128) j))
      = fun j => V c main_v3_1 (ix2 (⟨(((cfg1.win 9).blk t).view.emb (ix2 r q) 0).val / 16, by omega⟩ : Fin 4096) j) := by
    funext j
    show V c main_v3_1 (((cfg1.win 1).blk t).view.emb (ix2 (⟨r.val / 16, by omega⟩ : Fin 128) j)) = _
    refine congrArg _ (funext fun a => Fin.ext ?_)
    match a with
    | ⟨0, _⟩ =>
      show win1_1.index t (0 : Fin 2) * 128 + 1 * (r.val / 16) = (win1_9.index t (0 : Fin 2) * 2048 + 1 * r.val) / 16
      omega
    | ⟨1, _⟩ => show win1_1.index t (1 : Fin 2) * 64 + 1 * j.val = j.val; omega
  have hM : (fun j : Fin 64 => iblk1 V c 0 t (ix2 (⟨r.val / 16, by omega⟩ : Fin 128) j))
      = fun j => V c main_v3_0 (ix2 (⟨(((cfg1.win 9).blk t).view.emb (ix2 r q) 0).val / 16, by omega⟩ : Fin 4096) j) := by
    funext j
    show V c main_v3_0 (((cfg1.win 0).blk t).view.emb (ix2 (⟨r.val / 16, by omega⟩ : Fin 128) j)) = _
    refine congrArg _ (funext fun a => Fin.ext ?_)
    match a with
    | ⟨0, _⟩ =>
      show win1_0.index t (0 : Fin 2) * 128 + 1 * (r.val / 16) = (win1_9.index t (0 : Fin 2) * 2048 + 1 * r.val) / 16
      omega
    | ⟨1, _⟩ => show win1_0.index t (1 : Fin 2) * 64 + 1 * j.val = j.val; omega
  have h3 : (fun (k : Fin 64) (j : Fin 512) => iblk1 V c 3 t (ix2 k j)) = fun k j => V c main_arg8 (ix2 k j) := by
    funext k j
    show V c main_arg8 (((cfg1.win 3).blk t).view.emb (ix2 k j)) = _
    refine congrArg _ (funext fun a => Fin.ext ?_)
    match a with
    | ⟨0, _⟩ => show win1_3.index t (0 : Fin 2) * 64 + 1 * k.val = k.val; omega
    | ⟨1, _⟩ => show win1_3.index t (1 : Fin 2) * 512 + 1 * j.val = j.val; omega
  have h4 : (fun j : Fin 512 => iblk1 V c 4 t (ix2 (0 : Fin 1) j)) = fun j => V c main_v4 (ix2 (0 : Fin 1) j) := by
    funext j
    show V c main_v4 (((cfg1.win 4).blk t).view.emb (ix2 (0 : Fin 1) j)) = _
    refine congrArg _ (funext fun a => Fin.ext ?_)
    match a with
    | ⟨0, _⟩ => show win1_4.index t (0 : Fin 2) * 1 + 1 * 0 = 0; omega
    | ⟨1, _⟩ => show win1_4.index t (1 : Fin 2) * 512 + 1 * j.val = j.val; omega
  have h5 : (fun (k : Fin 512) (j : Fin 1024) => iblk1 V c 5 t (ix2 k j)) = fun k j => V c main_arg10 (ix2 k j) := by
    funext k j
    show V c main_arg10 (((cfg1.win 5).blk t).view.emb (ix2 k j)) = _
    refine congrArg _ (funext fun a => Fin.ext ?_)
    match a with
    | ⟨0, _⟩ => show win1_5.index t (0 : Fin 2) * 512 + 1 * k.val = k.val; omega
    | ⟨1, _⟩ => show win1_5.index t (1 : Fin 2) * 1024 + 1 * j.val = j.val; omega
  have h6 : (fun j : Fin 1024 => iblk1 V c 6 t (ix2 (0 : Fin 1) j)) = fun j => V c main_v5 (ix2 (0 : Fin 1) j) := by
    funext j
    show V c main_v5 (((cfg1.win 6).blk t).view.emb (ix2 (0 : Fin 1) j)) = _
    refine congrArg _ (funext fun a => Fin.ext ?_)
    match a with
    | ⟨0, _⟩ => show win1_6.index t (0 : Fin 2) * 1 + 1 * 0 = 0; omega
    | ⟨1, _⟩ => show win1_6.index t (1 : Fin 2) * 1024 + 1 * j.val = j.val; omega
  have h7 : (fun (k : Fin 1024) (j : Fin 784) => iblk1 V c 7 t (ix2 k j)) = fun k j => V c main_arg12 (ix2 k j) := by
    funext k j
    show V c main_arg12 (((cfg1.win 7).blk t).view.emb (ix2 k j)) = _
    refine congrArg _ (funext fun a => Fin.ext ?_)
    match a with
    | ⟨0, _⟩ => show win1_7.index t (0 : Fin 2) * 1024 + 1 * k.val = k.val; omega
    | ⟨1, _⟩ => show win1_7.index t (1 : Fin 2) * 784 + 1 * j.val = j.val; omega
  have h8 : (fun j : Fin 784 => iblk1 V c 8 t (ix2 (0 : Fin 1) j)) = fun j => V c main_v6 (ix2 (0 : Fin 1) j) := by
    funext j
    show V c main_v6 (((cfg1.win 8).blk t).view.emb (ix2 (0 : Fin 1) j)) = _
    refine congrArg _ (funext fun a => Fin.ext ?_)
    match a with
    | ⟨0, _⟩ => show win1_8.index t (0 : Fin 2) * 1 + 1 * 0 = 0; omega
    | ⟨1, _⟩ => show win1_8.index t (1 : Fin 2) * 784 + 1 * j.val = j.val; omega
  have hq : q = (⟨(((cfg1.win 9).blk t).view.emb (ix2 r q) 1).val, (((cfg1.win 9).blk t).view.emb (ix2 r q) 1).isLt⟩ : Fin 784) := by
    apply Fin.ext
    show q.val = win1_9.index t (1 : Fin 2) * 784 + 1 * q.val
    omega
  unfold recEntry recOf decEntry decWith
  rw [hE, hS, hM, h3, h4, h5, h6, h7, h8]
  exact congrArg _ hq

/-- What point `t` writes back is block `t` of the reconstruction of the entry contents. -/
theorem flushed_rec (c : Dev nD) (t : Fin cfg1.N) :
    (dat1 V c).flushed 9 t = ((cfg1.win 9).blk t).view.read (Elt Ideal) (recEntry V c) := by
  show (cfg1.win 9).cut (grid1.coords t) ((dat1 V c).after 9 t) = _
  rw [after1_9]
  unfold out1_9
  rw [View.canon_unit_zero hz]
  simp only [View.ld_unit_zero (S := S128x64) hz, View.ld_unit_zero (S := S16x64) hz, View.ld_unit_zero (S := S64x512) hz,
    View.ld_unit_zero (S := S1x512) hz, View.ld_unit_zero (S := S512x1024) hz, View.ld_unit_zero (S := S1x1024) hz,
    View.ld_unit_zero (S := S1024x784) hz, View.ld_unit_zero (S := S1x784) hz]
  funext y
  obtain ⟨r, q, rfl⟩ : ∃ (r : Fin 2048) (q : Fin 784), y = ix2 r q := ⟨y 0, y 1, eq_ix2 y⟩
  exact rec_point V c t r q

/-- An index of the array is in point `t`'s block iff each coordinate is in the block's range on its axis. -/
theorem mem_blk_rec (t : Fin cfg1.N) (i : S65536x784.Idx) :
    i ∈ ((cfg1.win 9).blk t).view.set ↔ ∀ a : Fin 2, win1_9.index t a * S2048x784.size a ≤ (i a).val ∧ (i a).val < win1_9.index t a * S2048x784.size a + S2048x784.size a := by
  show i ∈ ((View.whole main_v7).slice (win1_9.rect t)).set ↔ _
  rw [View.set_slice_whole, Rect.mem_set_unit]
  exact Iff.rfl

/-- Every index of the array is in the block of the point its row falls in: row r belongs to point r div 2048. -/
theorem cover_rec (i : S65536x784.Idx) :
    ∃ t : Fin cfg1.N, (cfg1.win 9).flush t = true ∧ i ∈ ((cfg1.win 9).blk t).view.set := by
  have hN : grid1.N = 32 := N_1
  have hi0 : (i 0).val < 65536 := (i 0).isLt
  have hi1 : (i 1).val < 784 := (i 1).isLt
  refine ⟨⟨(i 0).val / 2048, by show (i 0).val / 2048 < grid1.N; omega⟩, flush1_9 _, ?_⟩
  rw [mem_blk_rec]
  obtain ⟨d00, d01, d10, d11, d20, d21, d30, d31, d40, d41, d50, d51, d60, d61, d70, d71, d80, d81, d90, d91⟩ := idx_facts1 (⟨(i 0).val / 2048, by show (i 0).val / 2048 < grid1.N; omega⟩ : Fin cfg1.N)
  intro a
  match a with
  | ⟨0, _⟩ =>
    show win1_9.index _ (0 : Fin 2) * 2048 ≤ (i 0).val ∧ (i 0).val < win1_9.index _ (0 : Fin 2) * 2048 + 2048
    rw [d90]
    show (i 0).val / 2048 * 2048 ≤ (i 0).val ∧ (i 0).val < (i 0).val / 2048 * 2048 + 2048
    omega
  | ⟨1, _⟩ =>
    show win1_9.index _ (1 : Fin 2) * 784 ≤ (i 1).val ∧ (i 1).val < win1_9.index _ (1 : Fin 2) * 784 + 784
    rw [d91]
    omega

/-- After the last write-back the output array is the reconstruction of the entry contents. -/
theorem final_rec (c : Dev nD) : (dat1 V c).arrAt 9 cfg1.N = recEntry V c :=
  (dat1 V c).arrAt_eq_of_cover 9 (recEntry V c) (fun t _ => flushed_rec V c t) cover_rec

end Cert.KernelIdeal.DecValue

end
-- ==== Proof.KernelForward.lean ====
/-
  The idealized kernel's three results as the forward pass of its arguments.

  The encoder region leaves the mean and deviation arrays of what it found, and it found the arguments as launched with the
  bias rows holding the bias vectors; the decoder region leaves the reconstruction of what it found, and it found those two
  arrays, the noise and the decoder's parameters as launched, and its bias rows holding their vectors.
-/
import proofs.«126572_j27693949125146_2_alg».proof.Proof.KernelRun
import proofs.«126572_j27693949125146_2_alg».proof.Proof.Entry
import proofs.«126572_j27693949125146_2_alg».proof.Proof.EncValue
import proofs.«126572_j27693949125146_2_alg».proof.Proof.DecValue

set_option maxRecDepth 16384

noncomputable section

namespace Cert.KernelIdeal.Forward

open Cert.KernelIdeal Cert.KernelIdeal.Gen Idealize.ShloMosaic Idealize.ShloMosaic.TcCoe Idealize.SL.Sem
open Idealize.ShloMosaic.ValueIdx Cert.Vae

variable (m : (ℓ : Loc nD τ sig) → Buf (Elt Ideal) ℓ) (ρ : Dev nD → PrngReg)

/-- The encoder of the encoder region's entry contents is the encoder of the arguments. -/
theorem encEntry_eq (c : Dev nD) :
    EncValue.encEntry (V1 m ρ) c
      = encOfArgs (m ((c : Thread nD τ).loc main_arg0)) (m ((c : Thread nD τ).loc main_arg2)) (m ((c : Thread nD τ).loc main_arg3))
          (m ((c : Thread nD τ).loc main_arg4)) (m ((c : Thread nD τ).loc main_arg5)) (m ((c : Thread nD τ).loc main_arg6))
          (m ((c : Thread nD τ).loc main_arg7)) := by
  unfold EncValue.encEntry encOfArgs
  rw [Entry.V1_main_arg0, Entry.V1_main_arg2, Entry.V1_main_arg4, Entry.V1_main_arg6,
    funext (Entry.V1_main_v0 m ρ c), funext (Entry.V1_main_v1 m ρ c), funext (Entry.V1_main_v2 m ρ c)]

/-- The mean at the end of the run. -/
theorem mean_final (c : Dev nD) :
    W4 m ρ c (Proc.devRef .tc main_v3_0)
      = meanOfArgs (m ((c : Thread nD τ).loc main_arg0)) (m ((c : Thread nD τ).loc main_arg2)) (m ((c : Thread nD τ).loc main_arg3))
          (m ((c : Thread nD τ).loc main_arg4)) (m ((c : Thread nD τ).loc main_arg5)) (m ((c : Thread nD τ).loc main_arg6))
          (m ((c : Thread nD τ).loc main_arg7)) := by
  rw [Results.end_mean, EncValue.final_mean, encEntry_eq]
  rfl

/-- The deviation at the end of the run. -/
theorem sd_final (c : Dev nD) :
    W4 m ρ c (Proc.devRef .tc main_v3_1)
      = sdOfArgs (m ((c : Thread nD τ).loc main_arg0)) (m ((c : Thread nD τ).loc main_arg2)) (m ((c : Thread nD τ).loc main_arg3))
          (m ((c : Thread nD τ).loc main_arg4)) (m ((c : Thread nD τ).loc main_arg5)) (m ((c : Thread nD τ).loc main_arg6))
          (m ((c : Thread nD τ).loc main_arg7)) := by
  rw [Results.end_sd, EncValue.final_sd, encEntry_eq]
  rfl

/-- The reconstruction at the end of the run. -/
theorem rec_final (c : Dev nD) :
    W4 m ρ c (Proc.devRef .tc main_v7)
      = recOfArgs (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) (m ((c : Thread nD τ).loc main_arg11))
          (m ((c : Thread nD τ).loc main_arg12)) (m ((c : Thread nD τ).loc main_arg13)) := by
  rw [Results.end_rec, DecValue.final_rec]
  unfold DecValue.recEntry DecValue.decEntry recOfArgs meanOfArgs sdOfArgs
  rw [Entry.V3_main_v3_0, Entry.V3_main_v3_1, EncValue.final_mean, EncValue.final_sd, encEntry_eq,
    Entry.V3_main_arg1, Entry.V3_main_arg8, Entry.V3_main_arg10, Entry.V3_main_arg12,
    funext (Entry.V3_main_v4 m ρ c), funext (Entry.V3_main_v5 m ρ c), funext (Entry.V3_main_v6 m ρ c)]

/-- Every weakly fair execution of the idealized kernel terminates, nothing faulting, with the three results the forward
    pass of the arguments and the arguments as launched. -/
theorem run : θ_run defs (onTc (τ := τ) (main (F := Ideal))) ⟨m, fun _ => 0, ρ⟩ (fun r => ∀ c : Dev nD,
      r.2.mem ((c.tc : Thread nD τ).loc main_v7)
        = recOfArgs (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6)) (m ((c : Thread nD τ).loc main_arg7)) (m ((c : Thread nD τ).loc main_arg8))
            (m ((c : Thread nD τ).loc main_arg9)) (m ((c : Thread nD τ).loc main_arg10)) (m ((c : Thread nD τ).loc main_arg11))
            (m ((c : Thread nD τ).loc main_arg12)) (m ((c : Thread nD τ).loc main_arg13))
      ∧ r.2.mem ((c.tc : Thread nD τ).loc main_v3_0)
        = meanOfArgs (m ((c : Thread nD τ).loc main_arg0)) (m ((c : Thread nD τ).loc main_arg2)) (m ((c : Thread nD τ).loc main_arg3))
            (m ((c : Thread nD τ).loc main_arg4)) (m ((c : Thread nD τ).loc main_arg5)) (m ((c : Thread nD τ).loc main_arg6))
            (m ((c : Thread nD τ).loc main_arg7))
      ∧ r.2.mem ((c.tc : Thread nD τ).loc main_v3_1)
        = sdOfArgs (m ((c : Thread nD τ).loc main_arg0)) (m ((c : Thread nD τ).loc main_arg2)) (m ((c : Thread nD τ).loc main_arg3))
            (m ((c : Thread nD τ).loc main_arg4)) (m ((c : Thread nD τ).loc main_arg5)) (m ((c : Thread nD τ).loc main_arg6))
            (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c =>
      ⟨(h c).1.trans (rec_final m ρ c), (h c).2.1.trans (mean_final m ρ c), (h c).2.2.1.trans (sd_final m ρ c), (h c).2.2.2⟩)
    (Results.run m ρ)

end Cert.KernelIdeal.Forward

end
-- ==== Proof.RefRead.lean ====
/-
  The reference program, read as the three result arrays.

  Its text is the same forward pass over whole arrays: each dense layer a general dot product plus a bias vector broadcast
  twice, each logistic spelt 1 / (1 + e^(-y)), the two statistics two column slices of the encoder's output, the latent rows
  a product and a sum of broadcasts reshaped from [4096, 16, 64] to [65536, 64].
-/
import proofs.«126572_j27693949125146_2_alg».proof.Proof.Gen.ReferenceIdeal.Read
import proofs.«126572_j27693949125146_2_alg».proof.Proof.Forward

noncomputable section

namespace Cert.ReferenceIdeal.Forward

open Cert.ReferenceIdeal Cert.ReferenceIdeal.Gen Cert.ReferenceIdeal.Read Idealize.ShloMosaic Idealize.ShloMosaic.ValueIdx Cert.Vae

variable (x0 : (⟨S4096x784, .f32⟩ : BufTy).Contents (Elt Ideal)) (x1 : (⟨S16x64, .f32⟩ : BufTy).Contents (Elt Ideal))
  (x2 : (⟨S784x1024, .f32⟩ : BufTy).Contents (Elt Ideal)) (x3 : (⟨S1024, .f32⟩ : BufTy).Contents (Elt Ideal))
  (x4 : (⟨S1024x512, .f32⟩ : BufTy).Contents (Elt Ideal)) (x5 : (⟨S512, .f32⟩ : BufTy).Contents (Elt Ideal))
  (x6 : (⟨S512x128, .f32⟩ : BufTy).Contents (Elt Ideal)) (x7 : (⟨S128, .f32⟩ : BufTy).Contents (Elt Ideal))
  (x8 : (⟨S64x512, .f32⟩ : BufTy).Contents (Elt Ideal)) (x9 : (⟨S512, .f32⟩ : BufTy).Contents (Elt Ideal))
  (x10 : (⟨S512x1024, .f32⟩ : BufTy).Contents (Elt Ideal)) (x11 : (⟨S1024, .f32⟩ : BufTy).Contents (Elt Ideal))
  (x12 : (⟨S1024x784, .f32⟩ : BufTy).Contents (Elt Ideal)) (x13 : (⟨S784, .f32⟩ : BufTy).Contents (Elt Ideal))

/-- The encoder's output array at (a, q): output q of the encoder of batch row a. -/
theorem enc_apply (a : Fin 4096) (q : Fin 128) :
    val_main_v23 (F := Ideal) x0 x2 x3 x4 x5 x6 x7 (ix2 a q)
      = encAll x0 x2 (fun j => x3 (ix1 j)) x4 (fun j => x5 (ix1 j)) x6 (fun j => x7 (ix1 j)) a q := by
  have e : val_main_v23 (F := Ideal) x0 x2 x3 x4 x5 x6 x7
      = hostLayer (hostSigmoid bcast_S_S4096x512 (hostLayer (hostSigmoid bcast_S_S4096x1024
          (hostLayer x0 x2 x3 bcast_S1024_S1x1024_1 bcast_S1x1024_S4096x1024_0_1))
          x4 x5 bcast_S512_S1x512_1 bcast_S1x512_S4096x512_0_1))
          x6 x7 bcast_S128_S1x128_1 bcast_S1x128_S4096x128_0_1 := rfl
  rw [e, hostLayer_apply]
  unfold encAll encRow
  rw [hostSigmoid_hostLayer_row, hostSigmoid_hostLayer_row]

/-- The mean array is the first 64 outputs of the encoder, row by row. -/
theorem mean_eq :
    val_main_v24 (F := Ideal) x0 x2 x3 x4 x5 x6 x7
      = meanOf (encAll x0 x2 (fun j => x3 (ix1 j)) x4 (fun j => x5 (ix1 j)) x6 (fun j => x7 (ix1 j))) := by
  funext i
  rw [val_main_v24_apply]
  have h : idx_main_v24 i = ix2 (⟨(i 0).val, (i 0).isLt⟩ : Fin 4096) (⟨(i 1).val, by have h : (i 1).val < 64 := (i 1).isLt; omega⟩ : Fin 128) :=
    funext fun a => Fin.ext (by match a with | ⟨0, _⟩ => rfl | ⟨1, _⟩ => rfl)
  rw [h, enc_apply]
  rfl

/-- The deviation array is the last 64 outputs of the encoder, row by row. -/
theorem sd_eq :
    val_main_v25 (F := Ideal) x0 x2 x3 x4 x5 x6 x7
      = sdOf (encAll x0 x2 (fun j => x3 (ix1 j)) x4 (fun j => x5 (ix1 j)) x6 (fun j => x7 (ix1 j))) := by
  funext i
  rw [val_main_v25_apply]
  have h : idx_main_v25 i = ix2 (⟨(i 0).val, (i 0).isLt⟩ : Fin 4096) (⟨64 + (i 1).val, by have h : (i 1).val < 64 := (i 1).isLt; omega⟩ : Fin 128) :=
    funext fun a => Fin.ext (by match a with | ⟨0, _⟩ => rfl | ⟨1, _⟩ => rfl)
  rw [h, enc_apply]
  rfl

/-- Latent row r of the reference: noise row r mod 16 scaled and shifted by the statistics of batch row r div 16. -/
theorem latent_row (r : Fin 65536) :
    (fun j : Fin 64 => val_main_v34 (F := Ideal) x0 x1 x2 x3 x4 x5 x6 x7 (ix2 r j))
      = latentRow (fun j => x1 (ix2 (⟨r.val % 16, Nat.mod_lt _ (by decide)⟩ : Fin 16) j))
          (fun j => val_main_v25 (F := Ideal) x0 x2 x3 x4 x5 x6 x7 (ix2 (⟨r.val / 16, by have := r.isLt; omega⟩ : Fin 4096) j))
          (fun j => val_main_v24 (F := Ideal) x0 x2 x3 x4 x5 x6 x7 (ix2 (⟨r.val / 16, by have := r.isLt; omega⟩ : Fin 4096) j)) := by
  funext j
  have hr : r.val < 65536 := r.isLt
  have hj : j.val < 64 := j.isLt
  rw [val_main_v34_apply, val_main_v33_apply, val_main_v30_apply, val_main_v28_apply, val_main_v26_apply, val_main_v29_apply,
    val_main_v27_apply, val_main_v32_apply, val_main_v31_apply]
  have h1 : idx_main_v26 (idx_main_v28 (idx_main_v34 (ix2 r j))) = ix2 (⟨r.val % 16, Nat.mod_lt _ (by decide)⟩ : Fin 16) j :=
    funext fun a => Fin.ext (by
      match a with
      | ⟨0, _⟩ => show (r.val * 64 + j.val) / 64 % 16 = r.val % 16; omega
      | ⟨1, _⟩ => show (r.val * 64 + j.val) % 64 = j.val; omega)
  have h2 : idx_main_v27 (idx_main_v29 (idx_main_v34 (ix2 r j))) = ix2 (⟨r.val / 16, by omega⟩ : Fin 4096) j :=
    funext fun a => Fin.ext (by
      match a with
      | ⟨0, _⟩ => show (r.val * 64 + j.val) / 1024 = r.val / 16; omega
      | ⟨1, _⟩ => show (r.val * 64 + j.val) % 64 = j.val; omega)
  have h3 : idx_main_v31 (idx_main_v32 (idx_main_v34 (ix2 r j))) = ix2 (⟨r.val / 16, by omega⟩ : Fin 4096) j :=
    funext fun a => Fin.ext (by
      match a with
      | ⟨0, _⟩ => show (r.val * 64 + j.val) / 1024 = r.val / 16; omega
      | ⟨1, _⟩ => show (r.val * 64 + j.val) % 64 = j.val; omega)
  rw [h1, h2, h3]
  rfl

/-- The reconstruction array: row r decodes latent row r. -/
theorem rec_eq :
    val_main_v64 (F := Ideal) x0 x1 x2 x3 x4 x5 x6 x7 x8 x9 x10 x11 x12 x13
      = recOf (val_main_v24 (F := Ideal) x0 x2 x3 x4 x5 x6 x7) (val_main_v25 (F := Ideal) x0 x2 x3 x4 x5 x6 x7) x1
          (decWith x8 (fun j => x9 (ix1 j)) x10 (fun j => x11 (ix1 j)) x12 (fun j => x13 (ix1 j))) := by
  have e : val_main_v64 (F := Ideal) x0 x1 x2 x3 x4 x5 x6 x7 x8 x9 x10 x11 x12 x13
      = hostSigmoid bcast_S_S65536x784 (hostLayer (hostSigmoid bcast_S_S65536x1024 (hostLayer (hostSigmoid bcast_S_S65536x512
          (hostLayer (val_main_v34 (F := Ideal) x0 x1 x2 x3 x4 x5 x6 x7) x8 x9 bcast_S512_S1x512_1 bcast_S1x512_S65536x512_0_1))
          x10 x11 bcast_S1024_S1x1024_1 bcast_S1x1024_S65536x1024_0_1))
          x12 x13 bcast_S784_S1x784_1 bcast_S1x784_S65536x784_0_1) := rfl
  funext i
  obtain ⟨r, q, rfl⟩ : ∃ (r : Fin 65536) (q : Fin 784), i = ix2 r q := ⟨i 0, i 1, eq_ix2 i⟩
  rw [e, hostSigmoid_apply, hostLayer_apply, hostSigmoid_hostLayer_row, hostSigmoid_hostLayer_row, latent_row]
  rfl

/-- The three results of the reference as the forward pass of its arguments. -/
theorem rec_of_args :
    val_main_v64 (F := Ideal) x0 x1 x2 x3 x4 x5 x6 x7 x8 x9 x10 x11 x12 x13 = recOfArgs x0 x1 x2 x3 x4 x5 x6 x7 x8 x9 x10 x11 x12 x13 := by
  rw [rec_eq, mean_eq, sd_eq]
  rfl

theorem mean_of_args : val_main_v24 (F := Ideal) x0 x2 x3 x4 x5 x6 x7 = meanOfArgs x0 x2 x3 x4 x5 x6 x7 := mean_eq x0 x2 x3 x4 x5 x6 x7

theorem sd_of_args : val_main_v25 (F := Ideal) x0 x2 x3 x4 x5 x6 x7 = sdOfArgs x0 x2 x3 x4 x5 x6 x7 := sd_eq x0 x2 x3 x4 x5 x6 x7

end Cert.ReferenceIdeal.Forward

end
-- ==== Proof.lean ====
/-
  A variational autoencoder's forward pass as two kernels — an encoder tiled over 1024-row blocks of the batch that emits
  the mean and the deviation, and a fused reparameterisation-plus-decoder tiled over 128-row blocks that emits the
  2048 reconstructed rows of each block — against the plain whole-array program.

  Over the extended reals the two programs are the same function of the fourteen arguments, entry by entry: every layer is
  a sum of products plus a bias (the kernel's product into a zero accumulator and the host's general dot product are that
  sum; narrowing an operand to sixteen bits changes nothing), the kernel's logistic and the host's 1 / (1 + e^(-y)) are one
  function, and every layer acts row by row, so a block of rows computes the rows of the whole. The latent rows agree because
  the kernel's block-local row 16·b + l of point t is array row 16·(128·t + b) + l. Sums are taken in the same order and
  nothing is distributed or cancelled, so no finiteness of the inputs is used.

  The frames of both kernel programs are the generated ones; the reference's frame is its run with the results dropped.
  The idealisation rewrote no operation, so there is nothing to preserve.
-/
import proofs.«126572_j27693949125146_2_alg».proof.Defs
import proofs.«126572_j27693949125146_2_alg».proof.Proof.Gen.Kernel
import proofs.«126572_j27693949125146_2_alg».proof.Proof.Gen.Kernel.Skeleton
import proofs.«126572_j27693949125146_2_alg».proof.Proof.Gen.Kernel.Launch
import proofs.«126572_j27693949125146_2_alg».proof.Proof.Gen.Kernel.Points
import proofs.«126572_j27693949125146_2_alg».proof.Proof.Gen.Kernel.Frame
import proofs.«126572_j27693949125146_2_alg».proof.Proof.Gen.KernelIdeal
import proofs.«126572_j27693949125146_2_alg».proof.Proof.Gen.KernelIdeal.Skeleton
import proofs.«126572_j27693949125146_2_alg».proof.Proof.Gen.KernelIdeal.Launch
import proofs.«126572_j27693949125146_2_alg».proof.Proof.Gen.KernelIdeal.Points
import proofs.«126572_j27693949125146_2_alg».proof.Proof.Gen.KernelIdeal.Frame
import proofs.«126572_j27693949125146_2_alg».proof.Proof.Gen.ReferenceIdeal
import proofs.«126572_j27693949125146_2_alg».proof.Proof.Gen.ReferenceIdeal.Run
import proofs.«126572_j27693949125146_2_alg».proof.Proof.Gen.ReferenceIdeal.Read
import proofs.«126572_j27693949125146_2_alg».proof.Proof.Gen.Pre_finite_inputs
import proofs.«126572_j27693949125146_2_alg».proof.Proof.KernelForward
import proofs.«126572_j27693949125146_2_alg».proof.Proof.RefRead
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the results forgotten. -/
theorem frame_referenceIdeal : Cert.frame_ReferenceIdeal := fun m ρ _ =>
  (θ_run Cert.ReferenceIdeal.defs _ _).mono (fun _ h c => (h c).2.2.2) (Cert.ReferenceIdeal.Value.run (F := Ideal) m ρ)

theorem preserves : Cert.preserves_Kernel_KernelIdeal := trivial

/-- Both idealized programs end with the forward pass of their arguments in the three results; the arguments agree. -/
theorem algebraic : Cert.algebraic_KernelIdeal_ReferenceIdeal := by
  intro m ρ m' ρ' _ hagree
  refine ⟨_, _, _, Cert.KernelIdeal.Forward.run m ρ, ?_⟩
  refine (θ_run Cert.ReferenceIdeal.defs _ _).mono (fun _ h c => ?_) (Cert.ReferenceIdeal.Value.run (F := Ideal) m' ρ')
  obtain ⟨g0, g1, g2, g3, g4, g5, g6, g7, g8, g9, g10, g11, g12, g13⟩ := hagree c
  refine ⟨?_, ?_, ?_, (h c).2.2.2⟩
  · rw [(h c).1, Cert.ReferenceIdeal.Read.val_main_v64_eq, Cert.ReferenceIdeal.Forward.rec_of_args,
      g0, g1, g2, g3, g4, g5, g6, g7, g8, g9, g10, g11, g12, g13]
  · rw [(h c).2.1, Cert.ReferenceIdeal.Read.val_main_v24_eq, Cert.ReferenceIdeal.Forward.mean_of_args,
      g0, g2, g3, g4, g5, g6, g7]
  · rw [(h c).2.2.1, Cert.ReferenceIdeal.Read.val_main_v25_eq, Cert.ReferenceIdeal.Forward.sd_of_args,
      g0, g2, g3, g4, g5, g6, g7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
